-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg8 : FVec F S256x256 .f32) (main_arg9 : FVec F S256 .f32) (main_arg10 : FVec F S256x256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  main_v48

def fn_part1 {F : FTy → Type} [FloatOps F] (main_arg5 : FVec F S256x256 .f32) (main_arg6 : FVec F S256 .f32) (main_arg7 : FVec F S256x256 .f32) (main_arg8 : FVec F S256x256 .f32) (main_arg9 : FVec F S256 .f32) (main_arg10 : FVec F S256x256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x256 .f32) (main_arg3 : FVec F S256 .f32) (main_arg4 : FVec F S128x256 .f32) (main_arg5 : FVec F S256x256 .f32) (main_arg6 : FVec F S256 .f32) (main_arg7 : FVec F S256x256 .f32) (main_arg8 : FVec F S256x256 .f32) (main_arg9 : FVec F S256 .f32) (main_arg10 : FVec F S256x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩

abbrev nBuf : Space → Nat
  | .hbm => 98
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S1x256, .f32⟩
  | .hbm, ⟨41, _⟩ => ⟨S50000x256, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .f32⟩
  | .hbm, ⟨51, _⟩ => ⟨S_, .f32⟩
  | .hbm, ⟨52, _⟩ => ⟨S50000x256, .f32⟩
  | .hbm, ⟨53, _⟩ => ⟨S800000x1, .i32⟩
  | .hbm, ⟨54, _⟩ => ⟨S50000x256, .f32⟩
  | .hbm, ⟨55, _⟩ => ⟨S_, .f32⟩
  | .hbm, ⟨56, _⟩ => ⟨S800000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000x1, .f32⟩
  | .hbm, ⟨65, _⟩ => ⟨S50000x256, .f32⟩
  | .hbm, ⟨66, _⟩ => ⟨S50000x256, .f32⟩
  | .hbm, ⟨67, _⟩ => ⟨S1x256, .f32⟩
  | .hbm, ⟨68, _⟩ => ⟨S50000x256, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x256, .f32⟩
  | .hbm, ⟨78, _⟩ => ⟨S_, .f32⟩
  | .hbm, ⟨79, _⟩ => ⟨S50000x256, .f32⟩
  | .hbm, ⟨80, _⟩ => ⟨S800000x1, .i32⟩
  | .hbm, ⟨81, _⟩ => ⟨S50000x256, .f32⟩
  | .hbm, ⟨82, _⟩ => ⟨S_, .f32⟩
  | .hbm, ⟨83, _⟩ => ⟨S800000, .f32⟩
  | .hbm, ⟨84, _⟩ => ⟨S_, .f32⟩
  | .hbm, ⟨85, _⟩ => ⟨S50000, .f32⟩
  | .hbm, ⟨86, _⟩ => ⟨S800000x1, .i32⟩
  | .hbm, ⟨87, _⟩ => ⟨S50000, .f32⟩
  | .hbm, ⟨88, _⟩ => ⟨S_, .f32⟩
  | .hbm, ⟨89, _⟩ => ⟨S50000, .f32⟩
  | .hbm, ⟨90, _⟩ => ⟨S50000, .f32⟩
  | .hbm, ⟨91, _⟩ => ⟨S50000x1, .f32⟩
  | .hbm, ⟨92, _⟩ => ⟨S50000x256, .f32⟩
  | .hbm, ⟨93, _⟩ => ⟨S50000x256, .f32⟩
  | .hbm, ⟨94, _⟩ => ⟨S1x256, .f32⟩
  | .hbm, ⟨95, _⟩ => ⟨S50000x256, .f32⟩
  | .hbm, ⟨96, _⟩ => ⟨S50000x256, .f32⟩
  | .hbm, ⟨97, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S1x256, .f32⟩
  | .local _ .vmem, ⟨24, _⟩ => ⟨S256x256, .f32⟩
  | .local _ .vmem, ⟨25, _⟩ => ⟨S2000x256, .f32⟩
  | .local _ .vmem, ⟨26, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_10 : Ref sig .tc := ⟨.hbm, 69, rfl⟩
abbrev main_v46 : Ref sig .tc := ⟨.hbm, 70, rfl⟩
abbrev main_v47 : Ref sig .tc := ⟨.hbm, 71, rfl⟩
abbrev main_c_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_cst_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_15 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_1_0 : S2x800000.Slices ![1, 0] S1x800000
  shapeCasts_S1x800000_S800000 : S1x800000.ShapeCasts S800000
  slices_S2x800000_S1x800000_0_0 : S2x800000.Slices ![0, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x50000x256 : Shape := ⟨3, ![1, 50000, 256]⟩
abbrev S3x50000x256 : Shape := ⟨3, ![3, 50000, 256]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S_, .f32⟩
  | .hbm, ⟨47, _⟩ => ⟨S50000x256, .f32⟩
  | .hbm, ⟨48, _⟩ => ⟨S50000x256, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x256, .f32⟩
  | .hbm, ⟨58, _⟩ => ⟨S_, .f32⟩
  | .hbm, ⟨59, _⟩ => ⟨S50000x256, .f32⟩
  | .hbm, ⟨60, _⟩ => ⟨S800000x1, .i32⟩
  | .hbm, ⟨61, _⟩ => ⟨S50000x256, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S1x256, .f32⟩
  | .hbm, ⟨76, _⟩ => ⟨S50000x256, .f32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S_, .f32⟩
  | .hbm, ⟨81, _⟩ => ⟨S50000x256, .f32⟩
  | .hbm, ⟨82, _⟩ => ⟨S50000x256, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x256, .f32⟩
  | .hbm, ⟨92, _⟩ => ⟨S_, .f32⟩
  | .hbm, ⟨93, _⟩ => ⟨S50000x256, .f32⟩
  | .hbm, ⟨94, _⟩ => ⟨S800000x1, .i32⟩
  | .hbm, ⟨95, _⟩ => ⟨S50000x256, .f32⟩
  | .hbm, ⟨96, _⟩ => ⟨S_, .f32⟩
  | .hbm, ⟨97, _⟩ => ⟨S800000, .f32⟩
  | .hbm, ⟨98, _⟩ => ⟨S_, .f32⟩
  | .hbm, ⟨99, _⟩ => ⟨S50000, .f32⟩
  | .hbm, ⟨100, _⟩ => ⟨S800000x1, .i32⟩
  | .hbm, ⟨101, _⟩ => ⟨S50000, .f32⟩
  | .hbm, ⟨102, _⟩ => ⟨S_, .f32⟩
  | .hbm, ⟨103, _⟩ => ⟨S50000, .f32⟩
  | .hbm, ⟨104, _⟩ => ⟨S50000, .f32⟩
  | .hbm, ⟨105, _⟩ => ⟨S50000x1, .f32⟩
  | .hbm, ⟨106, _⟩ => ⟨S50000x256, .f32⟩
  | .hbm, ⟨107, _⟩ => ⟨S50000x256, .f32⟩
  | .hbm, ⟨108, _⟩ => ⟨S50000x256, .f32⟩
  | .hbm, ⟨109, _⟩ => ⟨S1x256, .f32⟩
  | .hbm, ⟨110, _⟩ => ⟨S50000x256, .f32⟩
  | .hbm, ⟨111, _⟩ => ⟨S50000x256, .f32⟩
  | .hbm, ⟨112, _⟩ => ⟨S50000x256, .f32⟩
  | .hbm, ⟨113, _⟩ => ⟨S50000x256, .f32⟩
  | .hbm, ⟨114, _⟩ => ⟨S1x50000x256, .f32⟩
  | .hbm, ⟨115, _⟩ => ⟨S1x50000x256, .f32⟩
  | .hbm, ⟨116, _⟩ => ⟨S1x50000x256, .f32⟩
  | .hbm, ⟨117, _⟩ => ⟨S3x50000x256, .f32⟩
  | .hbm, ⟨118, _⟩ => ⟨S_, .f32⟩
  | .hbm, ⟨119, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_16 : Ref sig .tc := ⟨.hbm, 118, rfl⟩
abbrev main_v85 : Ref sig .tc := ⟨.hbm, 119, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  slices_S2x800000_S1x800000_0_0 : S2x800000.Slices ![0, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S50000x256_S1x50000x256_1_2 : S50000x256.BroadcastsInDim S1x50000x256 (![1, 2] : Fin 2 → Fin S1x50000x256.rank)
  concatenates_S1x50000x256_S1x50000x256_S1x50000x256_S3x50000x256_d0 : Shape.Concatenates [S1x50000x256, S1x50000x256, S1x50000x256] S3x50000x256 0
  reducesTo_S3x50000x256_S50000x256_d0 : S3x50000x256.ReducesTo [0] S50000x256
  h_S_ : 0 < S_.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KRun.lean ====
/-
  The tiled program's run with its result named.

  The program is three tiled matrix stages among stretches of whole-array operations. Its run visits seven boundaries;
  at each the contents of every buffer are known: after a stretch, the stretch's operations applied to the contents
  before it; after a tiled stage, the stage's arrays at what its write-backs leave and every other buffer as before.
  Every weakly fair execution terminates without a fault, and the final memory agrees with the last boundary's
  contents on every buffer that outlives a stage — in particular on the result buffer, which is what this module
  records beside the unchanged argument arrays.
-/
import proofs.«129512_j40020505264513_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and the argument arrays end as launched. -/
theorem run_named : θ_run defs (onTc (τ := τ) (main (F := F))) ⟨m, fun _ => 0, ρ⟩ (fun r => ∀ c : Dev nD,
      r.2.mem ((c.tc : Thread nD τ).loc main_v68) = W7 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v68 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩)

end Cert.KernelIdeal.RunValue

end
-- ==== Proof.Carry.lean ====
/-
  What the tiled program carries from stretch to stretch unchanged.

  The argument arrays are written by nothing, and the two halves of the edge list (the source and the destination node
  of every edge, cut out of the edge array once, in the first stretch of whole-array operations) are written by nothing
  after that stretch. Each later boundary therefore still holds them: a stretch that does not write a buffer leaves it
  as it was, and a tiled stage changes only its own result array.
-/
import proofs.«129512_j40020505264513_1_alg».proof.Proof.Gen.KernelIdeal.Frame
import proofs.«129512_j40020505264513_1_alg».proof.Proof.Gen.ReferenceIdeal.Read

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.StableHlo

section Untouched
variable (W : Valuation τ sig (Elt Ideal))

/-! A stretch leaves a buffer it does not write as it found it. -/
theorem pass0_arg0 : StableHlo.after hostOps0 W (Proc.devRef .tc main_arg0) = W (Proc.devRef .tc main_arg0) := by after_results <;> rfl
theorem pass0_arg2 : StableHlo.after hostOps0 W (Proc.devRef .tc main_arg2) = W (Proc.devRef .tc main_arg2) := by after_results <;> rfl
theorem pass0_arg4 : StableHlo.after hostOps0 W (Proc.devRef .tc main_arg4) = W (Proc.devRef .tc main_arg4) := by after_results <;> rfl
theorem pass0_arg5 : StableHlo.after hostOps0 W (Proc.devRef .tc main_arg5) = W (Proc.devRef .tc main_arg5) := by after_results <;> rfl
theorem pass0_arg6 : StableHlo.after hostOps0 W (Proc.devRef .tc main_arg6) = W (Proc.devRef .tc main_arg6) := by after_results <;> rfl
theorem pass0_arg7 : StableHlo.after hostOps0 W (Proc.devRef .tc main_arg7) = W (Proc.devRef .tc main_arg7) := by after_results <;> rfl
theorem pass0_arg8 : StableHlo.after hostOps0 W (Proc.devRef .tc main_arg8) = W (Proc.devRef .tc main_arg8) := by after_results <;> rfl
theorem pass0_arg9 : StableHlo.after hostOps0 W (Proc.devRef .tc main_arg9) = W (Proc.devRef .tc main_arg9) := by after_results <;> rfl
theorem pass0_arg10 : StableHlo.after hostOps0 W (Proc.devRef .tc main_arg10) = W (Proc.devRef .tc main_arg10) := by after_results <;> rfl
theorem pass1_v24 : StableHlo.after hostOps1 W (Proc.devRef .tc main_v24) = W (Proc.devRef .tc main_v24) := by after_results <;> rfl
theorem pass1_v1 : StableHlo.after hostOps1 W (Proc.devRef .tc main_v1) = W (Proc.devRef .tc main_v1) := by after_results <;> rfl
theorem pass1_v3 : StableHlo.after hostOps1 W (Proc.devRef .tc main_v3) = W (Proc.devRef .tc main_v3) := by after_results <;> rfl
theorem pass1_arg5 : StableHlo.after hostOps1 W (Proc.devRef .tc main_arg5) = W (Proc.devRef .tc main_arg5) := by after_results <;> rfl
theorem pass1_arg7 : StableHlo.after hostOps1 W (Proc.devRef .tc main_arg7) = W (Proc.devRef .tc main_arg7) := by after_results <;> rfl
theorem pass1_arg8 : StableHlo.after hostOps1 W (Proc.devRef .tc main_arg8) = W (Proc.devRef .tc main_arg8) := by after_results <;> rfl
theorem pass1_arg9 : StableHlo.after hostOps1 W (Proc.devRef .tc main_arg9) = W (Proc.devRef .tc main_arg9) := by after_results <;> rfl
theorem pass1_arg10 : StableHlo.after hostOps1 W (Proc.devRef .tc main_arg10) = W (Proc.devRef .tc main_arg10) := by after_results <;> rfl
theorem pass2_v45 : StableHlo.after hostOps2 W (Proc.devRef .tc main_v45) = W (Proc.devRef .tc main_v45) := by after_results <;> rfl
theorem pass2_v24 : StableHlo.after hostOps2 W (Proc.devRef .tc main_v24) = W (Proc.devRef .tc main_v24) := by after_results <;> rfl
theorem pass2_arg8 : StableHlo.after hostOps2 W (Proc.devRef .tc main_arg8) = W (Proc.devRef .tc main_arg8) := by after_results <;> rfl
theorem pass2_arg10 : StableHlo.after hostOps2 W (Proc.devRef .tc main_arg10) = W (Proc.devRef .tc main_arg10) := by after_results <;> rfl
theorem pass2_v1 : StableHlo.after hostOps2 W (Proc.devRef .tc main_v1) = W (Proc.devRef .tc main_v1) := by after_results <;> rfl
end Untouched

variable (m : (ℓ : Loc nD τ sig) → Buf (Elt Ideal) ℓ) (ρ : Dev nD → PrngReg) (c : Dev nD)

/-! ## After the first stretch -/
theorem c1_arg0 : W1 m ρ c (Proc.devRef .tc main_arg0) = m ((c.tc : Thread nD τ).loc main_arg0) := (pass0_arg0 (W0 m ρ c)).trans rfl
theorem c1_arg2 : W1 m ρ c (Proc.devRef .tc main_arg2) = m ((c.tc : Thread nD τ).loc main_arg2) := (pass0_arg2 (W0 m ρ c)).trans rfl
theorem c1_arg4 : W1 m ρ c (Proc.devRef .tc main_arg4) = m ((c.tc : Thread nD τ).loc main_arg4) := (pass0_arg4 (W0 m ρ c)).trans rfl
theorem c1_arg5 : W1 m ρ c (Proc.devRef .tc main_arg5) = m ((c.tc : Thread nD τ).loc main_arg5) := (pass0_arg5 (W0 m ρ c)).trans rfl
theorem c1_arg6 : W1 m ρ c (Proc.devRef .tc main_arg6) = m ((c.tc : Thread nD τ).loc main_arg6) := (pass0_arg6 (W0 m ρ c)).trans rfl
theorem c1_arg7 : W1 m ρ c (Proc.devRef .tc main_arg7) = m ((c.tc : Thread nD τ).loc main_arg7) := (pass0_arg7 (W0 m ρ c)).trans rfl
theorem c1_arg8 : W1 m ρ c (Proc.devRef .tc main_arg8) = m ((c.tc : Thread nD τ).loc main_arg8) := (pass0_arg8 (W0 m ρ c)).trans rfl
theorem c1_arg9 : W1 m ρ c (Proc.devRef .tc main_arg9) = m ((c.tc : Thread nD τ).loc main_arg9) := (pass0_arg9 (W0 m ρ c)).trans rfl
theorem c1_arg10 : W1 m ρ c (Proc.devRef .tc main_arg10) = m ((c.tc : Thread nD τ).loc main_arg10) := (pass0_arg10 (W0 m ρ c)).trans rfl

/-- The source node of every edge, as the first stretch cuts it out of the edge array. -/
theorem c1_v1 : W1 m ρ c (Proc.devRef .tc main_v1) = Cert.ReferenceIdeal.Read.val_main_v1 (F := Ideal) (m ((c.tc : Thread nD τ).loc main_arg1)) := by
  show StableHlo.after hostOps0 (W0 m ρ c) _ = _
  after_results
  rfl
/-- The destination node of every edge. -/
theorem c1_v3 : W1 m ρ c (Proc.devRef .tc main_v3) = Cert.ReferenceIdeal.Read.val_main_v3 (F := Ideal) (m ((c.tc : Thread nD τ).loc main_arg1)) := by
  show StableHlo.after hostOps0 (W0 m ρ c) _ = _
  after_results
  rfl

/-! ## After the first tiled stage -/
theorem c2_arg5 : W2 m ρ c (Proc.devRef .tc main_arg5) = m ((c.tc : Thread nD τ).loc main_arg5) := (W2_of_ne m ρ c main_arg5 (by decide)).trans (c1_arg5 m ρ c)
theorem c2_arg6 : W2 m ρ c (Proc.devRef .tc main_arg6) = m ((c.tc : Thread nD τ).loc main_arg6) := (W2_of_ne m ρ c main_arg6 (by decide)).trans (c1_arg6 m ρ c)
theorem c2_arg7 : W2 m ρ c (Proc.devRef .tc main_arg7) = m ((c.tc : Thread nD τ).loc main_arg7) := (W2_of_ne m ρ c main_arg7 (by decide)).trans (c1_arg7 m ρ c)
theorem c2_arg8 : W2 m ρ c (Proc.devRef .tc main_arg8) = m ((c.tc : Thread nD τ).loc main_arg8) := (W2_of_ne m ρ c main_arg8 (by decide)).trans (c1_arg8 m ρ c)
theorem c2_arg9 : W2 m ρ c (Proc.devRef .tc main_arg9) = m ((c.tc : Thread nD τ).loc main_arg9) := (W2_of_ne m ρ c main_arg9 (by decide)).trans (c1_arg9 m ρ c)
theorem c2_arg10 : W2 m ρ c (Proc.devRef .tc main_arg10) = m ((c.tc : Thread nD τ).loc main_arg10) := (W2_of_ne m ρ c main_arg10 (by decide)).trans (c1_arg10 m ρ c)
theorem c2_v1 : W2 m ρ c (Proc.devRef .tc main_v1) = Cert.ReferenceIdeal.Read.val_main_v1 (F := Ideal) (m ((c.tc : Thread nD τ).loc main_arg1)) := (W2_of_ne m ρ c main_v1 (by decide)).trans (c1_v1 m ρ c)
theorem c2_v3 : W2 m ρ c (Proc.devRef .tc main_v3) = Cert.ReferenceIdeal.Read.val_main_v3 (F := Ideal) (m ((c.tc : Thread nD τ).loc main_arg1)) := (W2_of_ne m ρ c main_v3 (by decide)).trans (c1_v3 m ρ c)

/-! ## After the second stretch -/
theorem c3_arg5 : W3 m ρ c (Proc.devRef .tc main_arg5) = m ((c.tc : Thread nD τ).loc main_arg5) := (pass1_arg5 (W2 m ρ c)).trans (c2_arg5 m ρ c)
theorem c3_arg7 : W3 m ρ c (Proc.devRef .tc main_arg7) = m ((c.tc : Thread nD τ).loc main_arg7) := (pass1_arg7 (W2 m ρ c)).trans (c2_arg7 m ρ c)
theorem c3_arg8 : W3 m ρ c (Proc.devRef .tc main_arg8) = m ((c.tc : Thread nD τ).loc main_arg8) := (pass1_arg8 (W2 m ρ c)).trans (c2_arg8 m ρ c)
theorem c3_arg9 : W3 m ρ c (Proc.devRef .tc main_arg9) = m ((c.tc : Thread nD τ).loc main_arg9) := (pass1_arg9 (W2 m ρ c)).trans (c2_arg9 m ρ c)
theorem c3_arg10 : W3 m ρ c (Proc.devRef .tc main_arg10) = m ((c.tc : Thread nD τ).loc main_arg10) := (pass1_arg10 (W2 m ρ c)).trans (c2_arg10 m ρ c)
theorem c3_v1 : W3 m ρ c (Proc.devRef .tc main_v1) = Cert.ReferenceIdeal.Read.val_main_v1 (F := Ideal) (m ((c.tc : Thread nD τ).loc main_arg1)) := (pass1_v1 (W2 m ρ c)).trans (c2_v1 m ρ c)
theorem c3_v3 : W3 m ρ c (Proc.devRef .tc main_v3) = Cert.ReferenceIdeal.Read.val_main_v3 (F := Ideal) (m ((c.tc : Thread nD τ).loc main_arg1)) := (pass1_v3 (W2 m ρ c)).trans (c2_v3 m ρ c)

/-! ## After the second tiled stage -/
theorem c4_arg8 : W4 m ρ c (Proc.devRef .tc main_arg8) = m ((c.tc : Thread nD τ).loc main_arg8) := (W4_of_ne m ρ c main_arg8 (by decide)).trans (c3_arg8 m ρ c)
theorem c4_arg9 : W4 m ρ c (Proc.devRef .tc main_arg9) = m ((c.tc : Thread nD τ).loc main_arg9) := (W4_of_ne m ρ c main_arg9 (by decide)).trans (c3_arg9 m ρ c)
theorem c4_arg10 : W4 m ρ c (Proc.devRef .tc main_arg10) = m ((c.tc : Thread nD τ).loc main_arg10) := (W4_of_ne m ρ c main_arg10 (by decide)).trans (c3_arg10 m ρ c)
theorem c4_v1 : W4 m ρ c (Proc.devRef .tc main_v1) = Cert.ReferenceIdeal.Read.val_main_v1 (F := Ideal) (m ((c.tc : Thread nD τ).loc main_arg1)) := (W4_of_ne m ρ c main_v1 (by decide)).trans (c3_v1 m ρ c)
theorem c4_v3 : W4 m ρ c (Proc.devRef .tc main_v3) = Cert.ReferenceIdeal.Read.val_main_v3 (F := Ideal) (m ((c.tc : Thread nD τ).loc main_arg1)) := (W4_of_ne m ρ c main_v3 (by decide)).trans (c3_v3 m ρ c)

/-! ## After the third stretch -/
theorem c5_arg8 : W5 m ρ c (Proc.devRef .tc main_arg8) = m ((c.tc : Thread nD τ).loc main_arg8) := (pass2_arg8 (W4 m ρ c)).trans (c4_arg8 m ρ c)
theorem c5_arg10 : W5 m ρ c (Proc.devRef .tc main_arg10) = m ((c.tc : Thread nD τ).loc main_arg10) := (pass2_arg10 (W4 m ρ c)).trans (c4_arg10 m ρ c)

end Cert.KernelIdeal.Bridge

end
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.LibColRow.lean ====
/-
  Column and row broadcasts of small rank, and a vector viewed as a column, read at an index.

  • A column `[R, 1]` spread over `C` columns reads, at `(p, q)`, the column's entry `(p, 0)`.
  • A row `[1, C]` repeated over `R` rows reads, at `(p, q)`, the row's entry `(0, q)`.
  • A vector `[R]` viewed as a column `[R, 1]` reads, at `(p, 0)`, the vector's entry `p`; a vector `[C]` viewed as a
    row `[1, C]` reads, at `(0, q)`, the vector's entry `q`.
  General in the extents and the element type.
-/
import Idealize.ShloMosaic.Lib.ValueIdx
import Idealize.ShloMosaic.Lib.Pipeline.Value

noncomputable section

namespace Cert.LibColRow

open Idealize.ShloMosaic Idealize.ShloMosaic.ValueIdx

variable {α : Type}

/-- A column `[R, 1]` broadcast to `[R, C]`, at `(p, q)`: the column at `(p, 0)`. -/
theorem bcastTo_col_apply {R C : Nat} (h : (⟨2, ![R, 1]⟩ : Shape).Broadcasts ⟨2, ![R, C]⟩)
    (x : (⟨2, ![R, 1]⟩ : Shape).Idx → α) (p : Fin R) (q : Fin C) :
    broadcastTo ⟨2, ![R, C]⟩ x h (ix2 p q) = x (ix2 p (0 : Fin 1)) := by
  refine broadcastTo_apply x h (ix2 p q) (ix2 p (0 : Fin 1)) fun a => ?_
  match a with
  | ⟨0, _⟩ =>
    show p.val = if R = 1 then 0 else p.val
    split
    · next h1 => have := p.isLt; omega
    · rfl
  | ⟨1, _⟩ =>
    show 0 = if (1 : Nat) = 1 then 0 else q.val
    rw [if_pos rfl]

/-- A row `[1, C]` broadcast to `[R, C]`, at `(p, q)`: the row at `(0, q)`. -/
theorem bcastTo_row_apply {R C : Nat} (h : (⟨2, ![1, C]⟩ : Shape).Broadcasts ⟨2, ![R, C]⟩)
    (x : (⟨2, ![1, C]⟩ : Shape).Idx → α) (p : Fin R) (q : Fin C) :
    broadcastTo ⟨2, ![R, C]⟩ x h (ix2 p q) = x (ix2 (0 : Fin 1) q) := by
  refine broadcastTo_apply x h (ix2 p q) (ix2 (0 : Fin 1) q) fun a => ?_
  match a with
  | ⟨0, _⟩ =>
    show 0 = if (1 : Nat) = 1 then 0 else p.val
    rw [if_pos rfl]
  | ⟨1, _⟩ =>
    show q.val = if C = 1 then 0 else q.val
    split
    · next h1 => have := q.isLt; omega
    · rfl

/-- A vector `[R]` viewed as a column `[R, 1]`, at `(p, z)`: the vector at `p`. -/
theorem shapeCast_col_apply {R : Nat} (h : (⟨1, ![R]⟩ : Shape).ShapeCasts ⟨2, ![R, 1]⟩)
    (x : (⟨1, ![R]⟩ : Shape).Idx → α) (p : Fin R) (z : Fin 1) :
    shapeCast ⟨2, ![R, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- A vector `[C]` viewed as a row `[1, C]`, at `(z, q)`: the vector at `q`. -/
theorem shapeCast_row_apply {C : Nat} (h : (⟨1, ![C]⟩ : Shape).ShapeCasts ⟨2, ![1, C]⟩)
    (x : (⟨1, ![C]⟩ : Shape).Idx → α) (z : Fin 1) (q : Fin C) :
    shapeCast ⟨2, ![1, C]⟩ x h (ix2 z q) = x (ix1 q) := by
  refine shapeCast_apply x h (ix2 z q) (ix1 q) ?_
  rw [Shape.rowMajor_val_one, Shape.rowMajor_val_two]
  show q.val = z.val * C + q.val
  have := z.isLt
  have hz : z.val = 0 := by omega
  rw [hz, Nat.zero_mul, Nat.zero_add]

end Cert.LibColRow

end
-- ==== Proof.LibBiasRow.lean ====
/-
  A vector of length a laid out as the one row of a [1, a] array: the reshape [a] → [1, a] and the broadcast along
  axis 1 of [1, a] are the same array, entry (0, q) being entry q of the vector. General in a and the element type.
-/
import Idealize.ShloMosaic.Lib.Pipeline.Value
import Idealize.ShloMosaic.Lib.ValueIdx
import Idealize.ShloMosaic.Lib.ValueLayout

noncomputable section

namespace Cert.LibBiasRow

open Idealize.ShloMosaic Idealize.ShloMosaic.ValueIdx

/-- The reshape of a length-a vector to [1, a] is its broadcast into [1, a] along axis 1. -/
theorem shapeCast_eq_broadcastInDim {a : ℕ} {α : Type} (b : (⟨1, ![a]⟩ : Shape).Idx → α)
    (h : (⟨1, ![a]⟩ : Shape).ShapeCasts ⟨2, ![1, a]⟩) (h' : (⟨1, ![a]⟩ : Shape).BroadcastsInDim ⟨2, ![1, a]⟩ ![1]) :
    shapeCast ⟨2, ![1, a]⟩ b h = broadcastInDim ⟨2, ![1, a]⟩ ![1] h' b := by
  funext j
  obtain ⟨u, q, rfl⟩ : ∃ (u : Fin 1) (q : Fin a), j = ix2 u q := ⟨j 0, j 1, eq_ix2 j⟩
  rw [shapeCast_a_1a_apply, broadcastInDim_apply ![1] h' b (ix2 u q) (ix1 q) (fun ax => by
    match ax with
    | ⟨0, _⟩ =>
      show q.val = if a = 1 then 0 else q.val
      split
      · have := q.isLt; omega
      · rfl)]

end Cert.LibBiasRow

end
-- ==== Proof.Layer.lean ====
/-
  One graph-convolution layer, entry by entry, over the extended reals.

  A layer takes the aggregated neighbour features a and the node features h (both [M, K]), two weight matrices
  Wl, Wr ([K, N]) and a bias row b ([1, N]); its linear part at entry (r, c) is
      ∑ₖ a(r, k) · Wl(k, c)  +  ∑ₖ h(r, k) · Wr(k, c)  +  b(0, c).
  The tiled program computes exactly this grouping on a block of rows: two matrix products into zero accumulators,
  added, then the bias row repeated over the rows. The plain program adds the bias to the first product before the
  second product is added: (P₁ + b) + P₂. Addition of extended reals is commutative and associative, so the two
  groupings agree everywhere, infinite entries included; no sum is reordered inside a product and no factor is moved,
  so nothing needs the entries finite.
-/
import Idealize.ShloMosaic.PureOps.Ideal
import Idealize.ShloMosaic.PureOps.Ideal.Laws
import Idealize.ShloMosaic.Lib.ValueIdx
import Idealize.ShloMosaic.Lib.Pipeline.Value
import proofs.«129512_j40020505264513_1_alg».proof.Proof.LibPlainDot
import proofs.«129512_j40020505264513_1_alg».proof.Proof.LibColRow
import proofs.«129512_j40020505264513_1_alg».proof.Proof.LibBiasRow

noncomputable section

namespace Cert.Sage

open Idealize.ShloMosaic Idealize.ShloMosaic.ValueIdx

variable {M K N : Nat}

/-- The linear part of a layer at an entry: both products' sums and the bias row's entry of that column. -/
def lin (a h : (⟨2, ![M, K]⟩ : Shape).Idx → EReal) (Wl Wr : (⟨2, ![K, N]⟩ : Shape).Idx → EReal)
    (b : (⟨2, ![1, N]⟩ : Shape).Idx → EReal) : (⟨2, ![M, N]⟩ : Shape).Idx → EReal :=
  fun i => (∑ k : Fin K, a (ix2 (i 0) k) * Wl (ix2 k (i 1))) + (∑ k : Fin K, h (ix2 (i 0) k) * Wr (ix2 k (i 1)))
    + b (ix2 (0 : Fin 1) (i 1))

/-- A layer followed by the rectifier: the larger of the linear part and zero. -/
def layerRelu (a h : (⟨2, ![M, K]⟩ : Shape).Idx → EReal) (Wl Wr : (⟨2, ![K, N]⟩ : Shape).Idx → EReal)
    (b : (⟨2, ![1, N]⟩ : Shape).Idx → EReal) : (⟨2, ![M, N]⟩ : Shape).Idx → EReal :=
  fun i => max (lin a h Wl Wr b i) 0

theorem lin_ix2 (a h : (⟨2, ![M, K]⟩ : Shape).Idx → EReal) (Wl Wr : (⟨2, ![K, N]⟩ : Shape).Idx → EReal)
    (b : (⟨2, ![1, N]⟩ : Shape).Idx → EReal) (r : Fin M) (c : Fin N) :
    lin a h Wl Wr b (ix2 r c) = (∑ k : Fin K, a (ix2 r k) * Wl (ix2 k c)) + (∑ k : Fin K, h (ix2 r k) * Wr (ix2 k c))
      + b (ix2 (0 : Fin 1) c) := rfl

/-- THE TILED GROUPING on a block of B rows: two products into zero accumulators, added, plus the bias row repeated
    over the rows, read at entry (p, q). -/
theorem tiled_apply {B : Nat} {φ₁ φ₂ : FTy} (d : DotDims (⟨2, ![B, K]⟩ : Shape) ⟨2, ![K, N]⟩ ⟨2, ![B, N]⟩)
    (wf : DotDims.WF (⟨2, ![B, K]⟩ : Shape) ⟨2, ![K, N]⟩ ⟨2, ![B, N]⟩ [1] [0] [0] [1] [] []) (hd : d = LibPlainDot.dims wf)
    (A A' : FVec Ideal ⟨2, ![B, K]⟩ φ₁) (W W' : FVec Ideal ⟨2, ![K, N]⟩ φ₂) (b : FVec Ideal ⟨2, ![1, N]⟩ .f32)
    (hb : (⟨2, ![1, N]⟩ : Shape).Broadcasts ⟨2, ![B, N]⟩) (p : Fin B) (q : Fin N) :
    addf (addf (matmul d none A W (constant (F := Ideal) ⟨2, ![B, N]⟩ .f32 0x00000000#32))
        (matmul d none A' W' (constant (F := Ideal) ⟨2, ![B, N]⟩ .f32 0x00000000#32)))
      (broadcastTo ⟨2, ![B, N]⟩ b hb) (ix2 p q)
      = (∑ k : Fin K, A (ix2 p k) * W (ix2 k q)) + (∑ k : Fin K, A' (ix2 p k) * W' (ix2 k q)) + b (ix2 (0 : Fin 1) q) := by
  subst hd
  show FloatOps.matmul _ none A W _ (ix2 p q) + FloatOps.matmul _ none A' W' _ (ix2 p q) + broadcastTo _ b hb (ix2 p q) = _
  rw [LibPlainDot.matmul_zero_apply wf none A W p q, LibPlainDot.matmul_zero_apply wf none A' W' p q,
    LibColRow.bcastTo_row_apply hb b p q]

/-- THE PLAIN GROUPING on the whole arrays: (first product + bias broadcast over the rows) + second product, the bias a
    vector viewed as a row and then repeated, read at entry (r, c): the same three terms, regrouped. -/
theorem plain_apply {φ₁ φ₂ : FTy} (d : DotDims (⟨2, ![M, K]⟩ : Shape) ⟨2, ![K, N]⟩ ⟨2, ![M, N]⟩)
    (wf : DotDims.WF (⟨2, ![M, K]⟩ : Shape) ⟨2, ![K, N]⟩ ⟨2, ![M, N]⟩ [1] [0] [0] [1] [] []) (hd : d = LibPlainDot.dims wf)
    (a h : FVec Ideal ⟨2, ![M, K]⟩ φ₁) (Wl Wr : FVec Ideal ⟨2, ![K, N]⟩ φ₂) (b : FVec Ideal ⟨2, ![1, N]⟩ .f32)
    (hb : (⟨2, ![1, N]⟩ : Shape).BroadcastsInDim ⟨2, ![M, N]⟩ ![0, 1]) (r : Fin M) (c : Fin N) :
    addf (addf (Host.dotGeneral d none a Wl) (broadcastInDim ⟨2, ![M, N]⟩ ![0, 1] hb b)) (Host.dotGeneral d none h Wr) (ix2 r c)
      = (∑ k : Fin K, a (ix2 r k) * Wl (ix2 k c)) + (∑ k : Fin K, h (ix2 r k) * Wr (ix2 k c)) + b (ix2 (0 : Fin 1) c) := by
  subst hd
  show FloatOps.dotGeneral _ none _ a Wl (ix2 r c) + broadcastInDim _ ![0, 1] hb b (ix2 r c) + FloatOps.dotGeneral _ none _ h Wr (ix2 r c) = _
  rw [LibPlainDot.dotGeneral_apply wf none _ a Wl r c, LibPlainDot.dotGeneral_apply wf none _ h Wr r c,
    broadcastInDim_apply ![0, 1] hb b (ix2 r c) (ix2 (0 : Fin 1) c) (fun ax => by
      match ax with
      | ⟨0, _⟩ =>
        show 0 = if (1 : Nat) = 1 then 0 else r.val
        rw [if_pos rfl]
      | ⟨1, _⟩ =>
        show c.val = if N = 1 then 0 else c.val
        split
        · have := c.isLt; omega
        · rfl)]
  exact add_right_comm _ _ _

end Cert.Sage

end
-- ==== Proof.StackMax.lean ====
/-
  The entrywise maximum of three arrays, two ways.

  Stacking three [m, n] arrays x, y, z along a new leading axis (each first viewed as [1, m, n]) and taking the maximum
  over that axis starting from −∞ gives, at entry (r, c), max(max(x(r, c), y(r, c)), z(r, c)): the stacked array at
  (k, r, c) is the k-th of the three at (r, c), the fold over k ∈ {0, 1, 2} from −∞ is the maximum of the three values,
  and −∞ is the maximum's neutral element. General in m and n.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.Sage

open Idealize.ShloMosaic Idealize.ShloMosaic.ValueIdx

variable {m n : Nat}

/-- The fold of a maximum over the three indices from −∞ is the maximum of the three values. -/
theorem fold_max_three (f : Fin 3 → EReal) :
    (Finset.univ : Finset (Fin 3)).fold max ⊥ f = max (max (f 0) (f 1)) (f 2) := by
  have e : (Finset.univ : Finset (Fin 3)) = insert 0 (insert 1 {2}) := by decide
  rw [e, Finset.fold_insert (by decide), Finset.fold_insert (by decide), Finset.fold_singleton, max_bot_right, max_assoc]

/-- The reduced index (r, c) with the stacking coordinate k put back is (k, r, c). -/
theorem lift_stack (h : (⟨3, ![3, m, n]⟩ : Shape).Reduces [0] (⟨2, ![m, n]⟩ : Shape)) (r : Fin m) (c : Fin n)
    (k : Fin ((⟨3, ![3, m, n]⟩ : Shape).size 0)) : h.lift (ix2 r c) k = ix3 (⟨k.val, k.isLt⟩ : Fin 3) r c := by
  funext d; apply Fin.ext
  fin_cases d <;> rfl

/-- An [m, n] array viewed as [1, m, n], at (0, r, c): the array at (r, c). -/
theorem lead_apply {α : Type} (hb : (⟨2, ![m, n]⟩ : Shape).BroadcastsInDim ⟨3, ![1, m, n]⟩ ![1, 2])
    (x : (⟨2, ![m, n]⟩ : Shape).Idx → α) (u : Fin 1) (r : Fin m) (c : Fin n) :
    broadcastInDim ⟨3, ![1, m, n]⟩ ![1, 2] hb x (ix3 u r c) = x (ix2 r c) :=
  broadcastInDim_apply ![1, 2] hb x (ix3 u r c) (ix2 r c) (fun ax => by
    match ax with
    | ⟨0, _⟩ =>
      show r.val = if m = 1 then 0 else r.val
      split
      · have := r.isLt; omega
      · rfl
    | ⟨1, _⟩ =>
      show c.val = if n = 1 then 0 else c.val
      split
      · have := c.isLt; omega
      · rfl)

/-- The three arrays stacked, at (k, r, c): the k-th array at (r, c). -/
theorem stack_apply {α : Type} (x y z : (⟨3, ![1, m, n]⟩ : Shape).Idx → α)
    (hc : Shape.Concatenates [(⟨3, ![1, m, n]⟩ : Shape), ⟨3, ![1, m, n]⟩, ⟨3, ![1, m, n]⟩] ⟨3, ![3, m, n]⟩ 0)
    (r : Fin m) (c : Fin n) :
    concatenate ⟨3, ![3, m, n]⟩ 0 [⟨⟨3, ![1, m, n]⟩, x⟩, ⟨⟨3, ![1, m, n]⟩, y⟩, ⟨⟨3, ![1, m, n]⟩, z⟩] hc (ix3 (0 : Fin 3) r c) = x (ix3 (0 : Fin 1) r c)
    ∧ concatenate ⟨3, ![3, m, n]⟩ 0 [⟨⟨3, ![1, m, n]⟩, x⟩, ⟨⟨3, ![1, m, n]⟩, y⟩, ⟨⟨3, ![1, m, n]⟩, z⟩] hc (ix3 (1 : Fin 3) r c) = y (ix3 (0 : Fin 1) r c)
    ∧ concatenate ⟨3, ![3, m, n]⟩ 0 [⟨⟨3, ![1, m, n]⟩, x⟩, ⟨⟨3, ![1, m, n]⟩, y⟩, ⟨⟨3, ![1, m, n]⟩, z⟩] hc (ix3 (2 : Fin 3) r c) = z (ix3 (0 : Fin 1) r c) := by
  have hi : ∀ (j : (⟨3, ![3, m, n]⟩ : Shape).Idx) (b : Fin 3), b.cast (rfl : (3 : Nat) = 3) ≠ (0 : Fin 3) →
      ((ix3 (0 : Fin 1) r c : (⟨3, ![1, m, n]⟩ : Shape).Idx) b).val = ((ix3 (j 0) r c : (⟨3, ![3, m, n]⟩ : Shape).Idx) b).val := by
    intro j b hb
    match b with
    | ⟨0, _⟩ => exact absurd rfl hb
    | ⟨1, _⟩ => rfl
    | ⟨2, _⟩ => rfl
  refine ⟨?_, ?_, ?_⟩
  · exact concatenate_apply_piece 0 [⟨⟨3, ![1, m, n]⟩, x⟩, ⟨⟨3, ![1, m, n]⟩, y⟩, ⟨⟨3, ![1, m, n]⟩, z⟩] hc (ix3 (0 : Fin 3) r c) 0 (Nat.succ_pos 2) ⟨3, ![1, m, n]⟩ x rfl rfl 0 rfl
      (ix3 (0 : Fin 1) r c) (hi (ix3 (0 : Fin 3) r c)) rfl
  · exact concatenate_apply_piece 0 [⟨⟨3, ![1, m, n]⟩, x⟩, ⟨⟨3, ![1, m, n]⟩, y⟩, ⟨⟨3, ![1, m, n]⟩, z⟩] hc (ix3 (1 : Fin 3) r c) 1 (Nat.succ_lt_succ (Nat.succ_pos 1)) ⟨3, ![1, m, n]⟩ y rfl rfl 1 rfl
      (ix3 (0 : Fin 1) r c) (hi (ix3 (1 : Fin 3) r c)) rfl
  · exact concatenate_apply_piece 0 [⟨⟨3, ![1, m, n]⟩, x⟩, ⟨⟨3, ![1, m, n]⟩, y⟩, ⟨⟨3, ![1, m, n]⟩, z⟩] hc (ix3 (2 : Fin 3) r c) 2 (Nat.lt_succ_self 2) ⟨3, ![1, m, n]⟩ z rfl rfl 2 rfl
      (ix3 (0 : Fin 1) r c) (hi (ix3 (2 : Fin 3) r c)) rfl

/-- STACK AND REDUCE: the maximum over the stacking axis, from −∞, of the three arrays viewed as [1, m, n] and joined,
    is the entrywise maximum of the three. -/
theorem stackMax_eq (x y z : FVec Ideal ⟨2, ![m, n]⟩ .f32)
    (hb : (⟨2, ![m, n]⟩ : Shape).BroadcastsInDim ⟨3, ![1, m, n]⟩ ![1, 2])
    (hc : Shape.Concatenates [(⟨3, ![1, m, n]⟩ : Shape), ⟨3, ![1, m, n]⟩, ⟨3, ![1, m, n]⟩] ⟨3, ![3, m, n]⟩ 0)
    (h' : (⟨3, ![3, m, n]⟩ : Shape).ReducesTo [0] (⟨2, ![m, n]⟩ : Shape)) (hu : 0 < (⟨0, ![]⟩ : Shape).numel) :
    Host.reduce FloatOps.maximumf
        (concatenate ⟨3, ![3, m, n]⟩ 0 [⟨⟨3, ![1, m, n]⟩, broadcastInDim ⟨3, ![1, m, n]⟩ ![1, 2] hb x⟩,
          ⟨⟨3, ![1, m, n]⟩, broadcastInDim ⟨3, ![1, m, n]⟩ ![1, 2] hb y⟩,
          ⟨⟨3, ![1, m, n]⟩, broadcastInDim ⟨3, ![1, m, n]⟩ ![1, 2] hb z⟩] hc)
        (constant (F := Ideal) (⟨0, ![]⟩ : Shape) .f32 0xFF800000#32) h' hu
      = maximumf (maximumf x y) z := by
  have h : (⟨3, ![3, m, n]⟩ : Shape).Reduces [0] (⟨2, ![m, n]⟩ : Shape) := ⟨h'.1, Nat.succ_pos 1, h'.2⟩
  funext j
  obtain ⟨r, c, rfl⟩ : ∃ (r : Fin m) (c : Fin n), j = ix2 r c := ⟨j 0, j 1, eq_ix2 j⟩
  rw [Host.reduce_eq_fold_single FloatOps.maximumf _ _ h' h hu]
  obtain ⟨e0, e1, e2⟩ := stack_apply (broadcastInDim ⟨3, ![1, m, n]⟩ ![1, 2] hb x) (broadcastInDim ⟨3, ![1, m, n]⟩ ![1, 2] hb y)
    (broadcastInDim ⟨3, ![1, m, n]⟩ ![1, 2] hb z) hc r c
  rw [lead_apply hb x 0 r c] at e0
  rw [lead_apply hb y 0 r c] at e1
  rw [lead_apply hb z 0 r c] at e2
  have hbot : (constant (F := Ideal) (⟨0, ![]⟩ : Shape) .f32 0xFF800000#32) (Shape.Idx.first hu) = (⊥ : EReal) := by
    show Ideal.ofBits .f32 0xFF800000#32 = ⊥
    simp [Ideal.ofBits, Ideal.ieee]
  rw [hbot]
  have hf : ((concatenate ⟨3, ![3, m, n]⟩ 0 [⟨⟨3, ![1, m, n]⟩, broadcastInDim ⟨3, ![1, m, n]⟩ ![1, 2] hb x⟩,
          ⟨⟨3, ![1, m, n]⟩, broadcastInDim ⟨3, ![1, m, n]⟩ ![1, 2] hb y⟩,
          ⟨⟨3, ![1, m, n]⟩, broadcastInDim ⟨3, ![1, m, n]⟩ ![1, 2] hb z⟩] hc) ∘ h.lift (ix2 r c))
      = fun k : Fin 3 => (match k with | ⟨0, _⟩ => x (ix2 r c) | ⟨1, _⟩ => y (ix2 r c) | ⟨2, _⟩ => z (ix2 r c) : EReal) := by
    funext k
    show concatenate ⟨3, ![3, m, n]⟩ 0 [⟨⟨3, ![1, m, n]⟩, broadcastInDim ⟨3, ![1, m, n]⟩ ![1, 2] hb x⟩,
          ⟨⟨3, ![1, m, n]⟩, broadcastInDim ⟨3, ![1, m, n]⟩ ![1, 2] hb y⟩,
          ⟨⟨3, ![1, m, n]⟩, broadcastInDim ⟨3, ![1, m, n]⟩ ![1, 2] hb z⟩] hc (h.lift (ix2 r c) k) = _
    rw [lift_stack h r c k]
    match k with
    | ⟨0, _⟩ => exact e0
    | ⟨1, _⟩ => exact e1
    | ⟨2, _⟩ => exact e2
  show (Finset.univ : Finset (Fin 3)).fold max ⊥ _ = max (max (x (ix2 r c)) (y (ix2 r c))) (z (ix2 r c))
  rw [hf]
  exact fold_max_three _

end Cert.Sage

end
-- ==== Proof.RefLayers.lean ====
/-
  The plain program, layer by layer.

  The plain program computes three layers h₀, h₁, h₂ and returns their entrywise maximum. Each layer is the layer's value
  of module Layer — rectified for h₀ and h₁, not for h₂ — of the mean-aggregated features of the layer before, those
  features themselves, the layer's two weight matrices and its bias viewed as a row; the plain program's grouping
  (first product + bias) + second product is the tiled grouping by commutativity and associativity of the sum. The mean
  aggregation — gather the source rows, scatter-add them at the destination rows, divide by the clamped in-degree — is
  kept as one function of the features and the edge list and never opened. The returned maximum is spelt "stack the
  three, reduce with maximum from −∞", which is the entrywise maximum of the three (module StackMax).
-/
import proofs.«129512_j40020505264513_1_alg».proof.Proof.Gen.ReferenceIdeal.Read
import proofs.«129512_j40020505264513_1_alg».proof.Proof.Layer
import proofs.«129512_j40020505264513_1_alg».proof.Proof.StackMax

set_option maxRecDepth 16384

noncomputable section

namespace Cert.ReferenceIdeal.RefValue

open Cert.ReferenceIdeal Cert.ReferenceIdeal.Gen Cert.ReferenceIdeal.Read Idealize.ShloMosaic Idealize.ShloMosaic.ValueIdx Cert.Sage

/-- A bias vector viewed as a row. -/
def row (b : FVec Ideal S256 .f32) : FVec Ideal S1x256 .f32 :=
  broadcastInDim S1x256 ![1] bcast_S256_S1x256_1 b

/-- The mean aggregation before the second layer, as a function of the first layer's features and the edge list. -/
def agg1 (H : FVec Ideal S50000x256 .f32) (x1 : IVec S2x800000 32) : FVec Ideal S50000x256 .f32 :=
  Host.divf (F := Ideal) (Host.scatterAdd (F := Ideal) scatter_S50000x256_S800000x1_S800000x256_1_0_0_1 (val_main_v37 (F := Ideal)) (val_main_v38 (F := Ideal) x1)
    (Host.gather gather_S50000x256_S800000x1_S800000x256_1_0_n_n_0_1_1256 H (val_main_v35 (F := Ideal) x1))) (val_main_v47 (F := Ideal) x1)

/-- The mean aggregation before the third layer, as a function of the second layer's features and the edge list. -/
def agg2 (H : FVec Ideal S50000x256 .f32) (x1 : IVec S2x800000 32) : FVec Ideal S50000x256 .f32 :=
  Host.divf (F := Ideal) (Host.scatterAdd (F := Ideal) scatter_S50000x256_S800000x1_S800000x256_1_0_0_1 (val_main_v63 (F := Ideal)) (val_main_v64 (F := Ideal) x1)
    (Host.gather gather_S50000x256_S800000x1_S800000x256_1_0_n_n_0_1_1256 H (val_main_v61 (F := Ideal) x1))) (val_main_v73 (F := Ideal) x1)

theorem v48_eq (x0 : FVec Ideal S50000x128 .f32) (x1 : IVec S2x800000 32) (x2 : FVec Ideal S128x256 .f32) (x3 : FVec Ideal S256 .f32) (x4 : FVec Ideal S128x256 .f32) :
    val_main_v48 (F := Ideal) x0 x1 x2 x3 x4 = agg1 (val_main_v29 (F := Ideal) x0 x1 x2 x3 x4) x1 := rfl

theorem v74_eq (x0 : FVec Ideal S50000x128 .f32) (x1 : IVec S2x800000 32) (x2 : FVec Ideal S128x256 .f32) (x3 : FVec Ideal S256 .f32) (x4 : FVec Ideal S128x256 .f32) (x5 : FVec Ideal S256x256 .f32) (x6 : FVec Ideal S256 .f32) (x7 : FVec Ideal S256x256 .f32) :
    val_main_v74 (F := Ideal) x0 x1 x2 x3 x4 x5 x6 x7 = agg2 (val_main_v55 (F := Ideal) x0 x1 x2 x3 x4 x5 x6 x7) x1 := rfl

/-- The plain grouping with the rectifier, on any operands, is the rectified layer's value (128 input features). -/
theorem plainRelu128 (a h : FVec Ideal S50000x128 .f32) (Wl Wr : FVec Ideal S128x256 .f32) (b : FVec Ideal S256 .f32) :
    maximumf (F := Ideal) (addf (F := Ideal) (addf (F := Ideal) (Host.dotGeneral (F := Ideal) dot_S50000x128_S128x256_S50000x256_1_0_0_1_n_n none a Wl)
        (broadcastInDim S50000x256 ![0, 1] bcast_S1x256_S50000x256_0_1 (row b)))
        (Host.dotGeneral (F := Ideal) dot_S50000x128_S128x256_S50000x256_1_0_0_1_n_n none h Wr))
      (broadcastInDim S50000x256 ![] bcast_S_S50000x256 (constant (F := Ideal) S_ .f32 0x00000000#32))
      = layerRelu (M := 50000) (K := 128) (N := 256) a h Wl Wr (row b) := by
  funext j
  obtain ⟨r, c, rfl⟩ : ∃ (r : Fin 50000) (c : Fin 256), j = ix2 r c := ⟨j 0, j 1, eq_ix2 j⟩
  refine congrArg₂ max ?_ Ideal.ofBits_zero_f32
  exact plain_apply dot_S50000x128_S128x256_S50000x256_1_0_0_1_n_n dot_S50000x128_S128x256_S50000x256_1_0_0_1_n_n.wf rfl
    a h Wl Wr (row b) bcast_S1x256_S50000x256_0_1 r c

/-- The same with 256 input features. -/
theorem plainRelu256 (a h : FVec Ideal S50000x256 .f32) (Wl Wr : FVec Ideal S256x256 .f32) (b : FVec Ideal S256 .f32) :
    maximumf (F := Ideal) (addf (F := Ideal) (addf (F := Ideal) (Host.dotGeneral (F := Ideal) dot_S50000x256_S256x256_S50000x256_1_0_0_1_n_n none a Wl)
        (broadcastInDim S50000x256 ![0, 1] bcast_S1x256_S50000x256_0_1 (row b)))
        (Host.dotGeneral (F := Ideal) dot_S50000x256_S256x256_S50000x256_1_0_0_1_n_n none h Wr))
      (broadcastInDim S50000x256 ![] bcast_S_S50000x256 (constant (F := Ideal) S_ .f32 0x00000000#32))
      = layerRelu (M := 50000) (K := 256) (N := 256) a h Wl Wr (row b) := by
  funext j
  obtain ⟨r, c, rfl⟩ : ∃ (r : Fin 50000) (c : Fin 256), j = ix2 r c := ⟨j 0, j 1, eq_ix2 j⟩
  refine congrArg₂ max ?_ Ideal.ofBits_zero_f32
  exact plain_apply dot_S50000x256_S256x256_S50000x256_1_0_0_1_n_n dot_S50000x256_S256x256_S50000x256_1_0_0_1_n_n.wf rfl
    a h Wl Wr (row b) bcast_S1x256_S50000x256_0_1 r c

/-- The plain grouping without the rectifier is the layer's linear part (256 input features). -/
theorem plainLin256 (a h : FVec Ideal S50000x256 .f32) (Wl Wr : FVec Ideal S256x256 .f32) (b : FVec Ideal S256 .f32) :
    addf (F := Ideal) (addf (F := Ideal) (Host.dotGeneral (F := Ideal) dot_S50000x256_S256x256_S50000x256_1_0_0_1_n_n none a Wl)
        (broadcastInDim S50000x256 ![0, 1] bcast_S1x256_S50000x256_0_1 (row b)))
        (Host.dotGeneral (F := Ideal) dot_S50000x256_S256x256_S50000x256_1_0_0_1_n_n none h Wr)
      = lin (M := 50000) (K := 256) (N := 256) a h Wl Wr (row b) := by
  funext j
  obtain ⟨r, c, rfl⟩ : ∃ (r : Fin 50000) (c : Fin 256), j = ix2 r c := ⟨j 0, j 1, eq_ix2 j⟩
  exact plain_apply dot_S50000x256_S256x256_S50000x256_1_0_0_1_n_n dot_S50000x256_S256x256_S50000x256_1_0_0_1_n_n.wf rfl
    a h Wl Wr (row b) bcast_S1x256_S50000x256_0_1 r c

/-- THE FIRST LAYER of the plain program: the rectified layer's value of the aggregated inputs and the inputs. -/
theorem h0_eq (x0 : FVec Ideal S50000x128 .f32) (x1 : IVec S2x800000 32) (x2 : FVec Ideal S128x256 .f32) (x3 : FVec Ideal S256 .f32) (x4 : FVec Ideal S128x256 .f32) :
    val_main_v29 (F := Ideal) x0 x1 x2 x3 x4 = layerRelu (M := 50000) (K := 128) (N := 256) (val_main_v22 (F := Ideal) x0 x1) x0 x2 x4 (row x3) := by
  generalize hA : val_main_v22 (F := Ideal) x0 x1 = A
  rw [← plainRelu128 A x0 x2 x4 x3, ← hA]
  rfl

/-- THE SECOND LAYER. -/
theorem h1_eq (x0 : FVec Ideal S50000x128 .f32) (x1 : IVec S2x800000 32) (x2 : FVec Ideal S128x256 .f32) (x3 : FVec Ideal S256 .f32) (x4 : FVec Ideal S128x256 .f32) (x5 : FVec Ideal S256x256 .f32) (x6 : FVec Ideal S256 .f32) (x7 : FVec Ideal S256x256 .f32) :
    val_main_v55 (F := Ideal) x0 x1 x2 x3 x4 x5 x6 x7 = layerRelu (M := 50000) (K := 256) (N := 256) (agg1 (val_main_v29 (F := Ideal) x0 x1 x2 x3 x4) x1) (val_main_v29 (F := Ideal) x0 x1 x2 x3 x4) x5 x7 (row x6) := by
  rw [← v48_eq]
  generalize hA : val_main_v48 (F := Ideal) x0 x1 x2 x3 x4 = A
  generalize hH : val_main_v29 (F := Ideal) x0 x1 x2 x3 x4 = H
  rw [← plainRelu256 A H x5 x7 x6, ← hA, ← hH]
  rfl

/-- THE THIRD LAYER (not rectified). -/
theorem h2_eq (x0 : FVec Ideal S50000x128 .f32) (x1 : IVec S2x800000 32) (x2 : FVec Ideal S128x256 .f32) (x3 : FVec Ideal S256 .f32) (x4 : FVec Ideal S128x256 .f32) (x5 : FVec Ideal S256x256 .f32) (x6 : FVec Ideal S256 .f32) (x7 : FVec Ideal S256x256 .f32) (x8 : FVec Ideal S256x256 .f32) (x9 : FVec Ideal S256 .f32) (x10 : FVec Ideal S256x256 .f32) :
    val_main_v80 (F := Ideal) x0 x1 x2 x3 x4 x5 x6 x7 x8 x9 x10 = lin (M := 50000) (K := 256) (N := 256) (agg2 (val_main_v55 (F := Ideal) x0 x1 x2 x3 x4 x5 x6 x7) x1) (val_main_v55 (F := Ideal) x0 x1 x2 x3 x4 x5 x6 x7) x8 x10 (row x9) := by
  rw [← v74_eq]
  generalize hA : val_main_v74 (F := Ideal) x0 x1 x2 x3 x4 x5 x6 x7 = A
  generalize hH : val_main_v55 (F := Ideal) x0 x1 x2 x3 x4 x5 x6 x7 = H
  rw [← plainLin256 A H x8 x10 x9, ← hA, ← hH]
  rfl

/-- THE RESULT of the plain program: the entrywise maximum of the three layers. -/
theorem out_eq (x0 : FVec Ideal S50000x128 .f32) (x1 : IVec S2x800000 32) (x2 : FVec Ideal S128x256 .f32) (x3 : FVec Ideal S256 .f32) (x4 : FVec Ideal S128x256 .f32) (x5 : FVec Ideal S256x256 .f32) (x6 : FVec Ideal S256 .f32) (x7 : FVec Ideal S256x256 .f32) (x8 : FVec Ideal S256x256 .f32) (x9 : FVec Ideal S256 .f32) (x10 : FVec Ideal S256x256 .f32) :
    val_main_v85 (F := Ideal) x0 x1 x2 x3 x4 x5 x6 x7 x8 x9 x10
      = maximumf (F := Ideal) (s := S50000x256) (φ := .f32) (maximumf (F := Ideal) (s := S50000x256) (φ := .f32) (val_main_v29 (F := Ideal) x0 x1 x2 x3 x4) (val_main_v55 (F := Ideal) x0 x1 x2 x3 x4 x5 x6 x7)) (val_main_v80 (F := Ideal) x0 x1 x2 x3 x4 x5 x6 x7 x8 x9 x10) := by
  generalize hA : val_main_v29 (F := Ideal) x0 x1 x2 x3 x4 = A
  generalize hB : val_main_v55 (F := Ideal) x0 x1 x2 x3 x4 x5 x6 x7 = B
  generalize hC : val_main_v80 (F := Ideal) x0 x1 x2 x3 x4 x5 x6 x7 x8 x9 x10 = C
  rw [← stackMax_eq A B C bcast_S50000x256_S1x50000x256_1_2 concatenates_S1x50000x256_S1x50000x256_S1x50000x256_S3x50000x256_d0
    reducesTo_S3x50000x256_S50000x256_d0 h_S_, ← hA, ← hB, ← hC]
  rfl

end Cert.ReferenceIdeal.RefValue

end
-- ==== Proof.Host0.lean ====
/-
  The first stretch of whole-array operations of the tiled program.

  Before its first tiled stage the tiled program cuts the edge list into sources and destinations, gathers the source
  rows of the input features, scatter-adds them at the destination rows, divides by the clamped in-degree — the plain
  program's first mean aggregation, operation for operation — and views the first bias as a row. So the first stage
  finds, in its aggregated-features array, the plain program's aggregated inputs, and in its bias array the bias row.
-/
import proofs.«129512_j40020505264513_1_alg».proof.Proof.Gen.KernelIdeal.Frame
import proofs.«129512_j40020505264513_1_alg».proof.Proof.RefLayers
import proofs.«129512_j40020505264513_1_alg».proof.Proof.LibBiasRow

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

set_option maxHeartbeats 4000000 in
/-- The aggregated inputs the first stage finds are the plain program's. -/
theorem h0_agg : W1 m ρ c (Proc.devRef .tc main_v22) = Cert.ReferenceIdeal.Read.val_main_v22 (F := Ideal) (m ((c.tc : Thread nD τ).loc main_arg0)) (m ((c.tc : Thread nD τ).loc main_arg1)) := by
  show StableHlo.after hostOps0 (W0 m ρ c) _ = _
  after_results_simp
  rfl

set_option maxHeartbeats 4000000 in
/-- The bias array the first stage finds is the first bias viewed as a row. -/
theorem h0_bias : W1 m ρ c (Proc.devRef .tc main_v23) = Cert.ReferenceIdeal.RefValue.row (m ((c.tc : Thread nD τ).loc main_arg3)) := by
  show StableHlo.after hostOps0 (W0 m ρ c) _ = _
  after_results_simp
  exact Cert.LibBiasRow.shapeCast_eq_broadcastInDim (a := 256) _ _ _

end Cert.KernelIdeal.Bridge

end
-- ==== Proof.Host1.lean ====
/-
  The second stretch of whole-array operations of the tiled program.

  Between two tiled stages the tiled program aggregates the features the stage before left — gather the source rows,
  scatter-add at the destination rows, divide by the clamped in-degree: the plain program's mean aggregation of the same
  layer, operation for operation, so the two are one function of the features and the edge list — and views the next
  bias as a row. Stated for any contents W of the buffers before the stretch in which the two halves of the edge list
  are what the first stretch cut out.
-/
import proofs.«129512_j40020505264513_1_alg».proof.Proof.Gen.KernelIdeal.Frame
import proofs.«129512_j40020505264513_1_alg».proof.Proof.RefLayers
import proofs.«129512_j40020505264513_1_alg».proof.Proof.LibBiasRow

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.StableHlo

variable (W : Valuation τ sig (Elt Ideal)) (x1 : IVec Cert.ReferenceIdeal.S2x800000 32)

set_option maxHeartbeats 4000000 in
/-- The aggregated features the next stage finds: the plain program's mean aggregation of the features before. -/
theorem h1_agg (h1 : W (Proc.devRef .tc main_v1) = Cert.ReferenceIdeal.Read.val_main_v1 (F := Ideal) x1) (h3 : W (Proc.devRef .tc main_v3) = Cert.ReferenceIdeal.Read.val_main_v3 (F := Ideal) x1) :
    StableHlo.after hostOps1 W (Proc.devRef .tc main_v43) = Cert.ReferenceIdeal.RefValue.agg1 (W (Proc.devRef .tc main_v24)) x1 := by
  after_results_simp
  rw [h1, h3]
  rfl

set_option maxHeartbeats 4000000 in
/-- The bias array the next stage finds: the bias viewed as a row. -/
theorem h1_bias : StableHlo.after hostOps1 W (Proc.devRef .tc main_v44) = Cert.ReferenceIdeal.RefValue.row (W (Proc.devRef .tc main_arg6)) := by
  after_results_simp
  exact Cert.LibBiasRow.shapeCast_eq_broadcastInDim (a := 256) _ _ _

end Cert.KernelIdeal.Bridge

end
-- ==== Proof.Host2.lean ====
/-
  The third stretch of whole-array operations of the tiled program.

  Between two tiled stages the tiled program aggregates the features the stage before left — gather the source rows,
  scatter-add at the destination rows, divide by the clamped in-degree: the plain program's mean aggregation of the same
  layer, operation for operation, so the two are one function of the features and the edge list — and views the next
  bias as a row. Stated for any contents W of the buffers before the stretch in which the two halves of the edge list
  are what the first stretch cut out.
-/
import proofs.«129512_j40020505264513_1_alg».proof.Proof.Gen.KernelIdeal.Frame
import proofs.«129512_j40020505264513_1_alg».proof.Proof.RefLayers
import proofs.«129512_j40020505264513_1_alg».proof.Proof.LibBiasRow

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.StableHlo

variable (W : Valuation τ sig (Elt Ideal)) (x1 : IVec Cert.ReferenceIdeal.S2x800000 32)

set_option maxHeartbeats 4000000 in
/-- The aggregated features the next stage finds: the plain program's mean aggregation of the features before. -/
theorem h2_agg (h1 : W (Proc.devRef .tc main_v1) = Cert.ReferenceIdeal.Read.val_main_v1 (F := Ideal) x1) (h3 : W (Proc.devRef .tc main_v3) = Cert.ReferenceIdeal.Read.val_main_v3 (F := Ideal) x1) :
    StableHlo.after hostOps2 W (Proc.devRef .tc main_v64) = Cert.ReferenceIdeal.RefValue.agg2 (W (Proc.devRef .tc main_v45)) x1 := by
  after_results_simp
  rw [h1, h3]
  rfl

set_option maxHeartbeats 4000000 in
/-- The bias array the next stage finds: the bias viewed as a row. -/
theorem h2_bias : StableHlo.after hostOps2 W (Proc.devRef .tc main_v65) = Cert.ReferenceIdeal.RefValue.row (W (Proc.devRef .tc main_arg9)) := by
  after_results_simp
  exact Cert.LibBiasRow.shapeCast_eq_broadcastInDim (a := 256) _ _ _

end Cert.KernelIdeal.Bridge

end
-- ==== Proof.Host3.lean ====
/-
  The last stretch of the tiled program: the entrywise maximum of the three stages' results, two at a time.
-/
import proofs.«129512_j40020505264513_1_alg».proof.Proof.Gen.KernelIdeal.Frame
import Idealize.ShloMosaic.PureOps.Ideal

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.StableHlo

variable (W : Valuation τ sig (Elt Ideal))

theorem h3_out : StableHlo.after hostOps3 W (Proc.devRef .tc main_v68)
    = maximumf (F := Ideal) (s := S50000x256) (φ := .f32) (maximumf (F := Ideal) (s := S50000x256) (φ := .f32) (W (Proc.devRef .tc main_v24)) (W (Proc.devRef .tc main_v45))) (W (Proc.devRef .tc main_v66)) := by
  after_results

end Cert.KernelIdeal.Bridge

end
-- ==== Proof.Payload.lean ====
/-
  What each tiled stage's body stores, entry by entry.

  The body of every stage reads a block of B = 2000 rows of the aggregated features and of the node features, the two
  weight matrices and the bias row, rounds the four matrix operands to a shorter float format (the identity on the
  extended reals), forms the two products into zero accumulators, adds them, adds the bias row repeated over the rows
  and — in the first two stages — takes the larger of the result and zero. At entry (p, q) of the block that is the
  layer's linear part of the loaded blocks (module Layer), rectified or not.
-/
import proofs.«129512_j40020505264513_1_alg».proof.Proof.Gen.KernelIdeal.Skeleton
import proofs.«129512_j40020505264513_1_alg».proof.Proof.Layer

noncomputable section

namespace Cert.KernelIdeal.Tile

open Cert.KernelIdeal Cert.KernelIdeal.Gen Idealize.ShloMosaic Idealize.ShloMosaic.ValueIdx Cert.Sage

/-- The zero offsets of a whole-buffer access, as a constant function. -/
theorem offsets_zero : (![0, 0] : Fin 2 → Nat) = fun _ => 0 := funext fun a => by fin_cases a <;> rfl

/-- Stage 0's stored block at (p, q): the rectified linear part of the loaded blocks. -/
theorem pay0_apply (x0 x1 : Vec Ideal S2000x128 .f32) (x2 x4 : Vec Ideal S128x256 .f32) (x3 : Vec Ideal S1x256 .f32)
    (p : Fin 2000) (q : Fin 256) :
    k0_pay1 (F := Ideal) x0 x1 x2 x4 x3 (ix2 p q) = max (lin x0 x1 x2 x4 x3 (ix2 p q)) 0 := by
  unfold k0_pay1
  simp only [shapeCast_self]
  refine congrArg₂ max ?_ Ideal.ofBits_zero_f32
  exact tiled_apply dot_S2000x128_S128x256_S2000x256_1_0_0_1_n_n dot_S2000x128_S128x256_S2000x256_1_0_0_1_n_n.wf rfl
    _ _ _ _ x3 broadcasts_S1x256_S2000x256 p q

/-- Stage 1's stored block at (p, q): the rectified linear part of the loaded blocks. -/
theorem pay1_apply (x0 x1 : Vec Ideal S2000x256 .f32) (x2 x4 : Vec Ideal S256x256 .f32) (x3 : Vec Ideal S1x256 .f32)
    (p : Fin 2000) (q : Fin 256) :
    k1_pay1 (F := Ideal) x0 x1 x2 x4 x3 (ix2 p q) = max (lin x0 x1 x2 x4 x3 (ix2 p q)) 0 := by
  unfold k1_pay1
  simp only [shapeCast_self]
  refine congrArg₂ max ?_ Ideal.ofBits_zero_f32
  exact tiled_apply dot_S2000x256_S256x256_S2000x256_1_0_0_1_n_n dot_S2000x256_S256x256_S2000x256_1_0_0_1_n_n.wf rfl
    _ _ _ _ x3 broadcasts_S1x256_S2000x256 p q

/-- Stage 2's stored block at (p, q): the linear part of the loaded blocks, not rectified. -/
theorem pay2_apply (x0 x1 : Vec Ideal S2000x256 .f32) (x2 x4 : Vec Ideal S256x256 .f32) (x3 : Vec Ideal S1x256 .f32)
    (p : Fin 2000) (q : Fin 256) :
    k2_pay1 (F := Ideal) x0 x1 x2 x4 x3 (ix2 p q) = lin x0 x1 x2 x4 x3 (ix2 p q) := by
  unfold k2_pay1
  simp only [shapeCast_self]
  exact tiled_apply dot_S2000x256_S256x256_S2000x256_1_0_0_1_n_n dot_S2000x256_S256x256_S2000x256_1_0_0_1_n_n.wf rfl
    _ _ _ _ x3 broadcasts_S1x256_S2000x256 p q

end Cert.KernelIdeal.Tile

end
-- ==== Proof.Tile0.lean ====
/-
  Tiled stage 0: the array it leaves.

  The stage runs over 25 points; point t reads rows 2000·t … 2000·t + 1999 of the aggregated features and of the node
  features, the whole of both weight matrices and of the bias row, and writes back rows 2000·t … 2000·t + 1999 of the
  result. What it writes is the layer's value (module Layer) of the loaded blocks, which — a row of the layer's value
  depending only on the same row of the two feature arrays — is those rows of the layer's value of the whole arrays. The
  25 blocks tile the 50000 rows, so after the stage the result array is the layer's value of the arrays the stage
  found, whatever those are.
-/
import proofs.«129512_j40020505264513_1_alg».proof.Proof.Gen.KernelIdeal.Frame
import proofs.«129512_j40020505264513_1_alg».proof.Proof.Payload

set_option maxRecDepth 16384

noncomputable section

namespace Cert.KernelIdeal.Tile

open Cert.KernelIdeal Cert.KernelIdeal.Gen Idealize.ShloMosaic Idealize.ShloMosaic.TcCoe Idealize.ShloMosaic.ValueIdx
open Idealize.SL.Sem Cert.Sage
open Idealize.ShloMosaic.Pipeline (Dat Cfg Window)

variable (V : (c : Dev nD) → (b : Ref sig .tc) → Buf (Elt Ideal) ((c : Thread nD τ).loc b))

/-- The printed index maps over the grid: the two feature windows and the result window are at block row t, every
    other block index is zero. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of block t is a row of the array. -/
theorem rows_lt0 (t : Fin cfg0.N) (p : Fin 2000) : 2000 * t.val + p.val < 50000 := by
  have h : t.val < 25 := lt_of_lt_of_eq t.isLt N_0
  have := p.isLt; omega

/-- Window 0's block at point t is rows 2000·t … 2000·t + 1999 of its array. -/
theorem read0_0 (c : Dev nD) (t : Fin cfg0.N) (p : Fin 2000) (k : Fin 128) :
    iblk0 V c 0 t (ix2 p k) = V c main_v22 (ix2 (⟨2000 * t.val + p.val, rows_lt0 t p⟩ : Fin 50000) k) := by
  obtain ⟨e0, e1, e2, e3, e4, e5, e6, e7, e8, e9, e10, e11⟩ := idx_facts0 t
  show V c main_v22 (((cfg0.win 0).blk t).view.emb (ix2 p k)) = _
  refine congrArg (V c main_v22) (funext fun ax => Fin.ext ?_)
  match ax with
  | ⟨0, _⟩ => show win0_0.index t (0 : Fin 2) * 2000 + 1 * p.val = 2000 * t.val + p.val; omega
  | ⟨1, _⟩ => show win0_0.index t (1 : Fin 2) * 128 + 1 * k.val = k.val; omega

/-- Window 1's block at point t is rows 2000·t … 2000·t + 1999 of its array. -/
theorem read0_1 (c : Dev nD) (t : Fin cfg0.N) (p : Fin 2000) (k : Fin 128) :
    iblk0 V c 1 t (ix2 p k) = V c main_arg0 (ix2 (⟨2000 * t.val + p.val, rows_lt0 t p⟩ : Fin 50000) k) := by
  obtain ⟨e0, e1, e2, e3, e4, e5, e6, e7, e8, e9, e10, e11⟩ := idx_facts0 t
  show V c main_arg0 (((cfg0.win 1).blk t).view.emb (ix2 p k)) = _
  refine congrArg (V c main_arg0) (funext fun ax => Fin.ext ?_)
  match ax with
  | ⟨0, _⟩ => show win0_1.index t (0 : Fin 2) * 2000 + 1 * p.val = 2000 * t.val + p.val; omega
  | ⟨1, _⟩ => show win0_1.index t (1 : Fin 2) * 128 + 1 * k.val = k.val; omega

/-- Window 2 is the whole of its array at every point. -/
theorem read0_2 (c : Dev nD) (t : Fin cfg0.N) (k : Fin 128) (q : Fin 256) :
    iblk0 V c 2 t (ix2 k q) = V c main_arg2 (ix2 k q) := by
  obtain ⟨e0, e1, e2, e3, e4, e5, e6, e7, e8, e9, e10, e11⟩ := idx_facts0 t
  show V c main_arg2 (((cfg0.win 2).blk t).view.emb (ix2 k q)) = _
  refine congrArg (V c main_arg2) (funext fun ax => Fin.ext ?_)
  match ax with
  | ⟨0, _⟩ => show win0_2.index t (0 : Fin 2) * 128 + 1 * k.val = k.val; omega
  | ⟨1, _⟩ => show win0_2.index t (1 : Fin 2) * 256 + 1 * q.val = q.val; omega

/-- Window 3 is the whole of its array at every point. -/
theorem read0_3 (c : Dev nD) (t : Fin cfg0.N) (k : Fin 1) (q : Fin 256) :
    iblk0 V c 3 t (ix2 k q) = V c main_v23 (ix2 k q) := by
  obtain ⟨e0, e1, e2, e3, e4, e5, e6, e7, e8, e9, e10, e11⟩ := idx_facts0 t
  show V c main_v23 (((cfg0.win 3).blk t).view.emb (ix2 k q)) = _
  refine congrArg (V c main_v23) (funext fun ax => Fin.ext ?_)
  match ax with
  | ⟨0, _⟩ => show win0_3.index t (0 : Fin 2) * 1 + 1 * k.val = k.val; omega
  | ⟨1, _⟩ => show win0_3.index t (1 : Fin 2) * 256 + 1 * q.val = q.val; omega

/-- Window 4 is the whole of its array at every point. -/
theorem read0_4 (c : Dev nD) (t : Fin cfg0.N) (k : Fin 128) (q : Fin 256) :
    iblk0 V c 4 t (ix2 k q) = V c main_arg4 (ix2 k q) := by
  obtain ⟨e0, e1, e2, e3, e4, e5, e6, e7, e8, e9, e10, e11⟩ := idx_facts0 t
  show V c main_arg4 (((cfg0.win 4).blk t).view.emb (ix2 k q)) = _
  refine congrArg (V c main_arg4) (funext fun ax => Fin.ext ?_)
  match ax with
  | ⟨0, _⟩ => show win0_4.index t (0 : Fin 2) * 128 + 1 * k.val = k.val; omega
  | ⟨1, _⟩ => show win0_4.index t (1 : Fin 2) * 256 + 1 * q.val = q.val; omega

/-- WHAT POINT t WRITES BACK is block t of the layer's value of the arrays the stage found. -/
theorem flushed0 (c : Dev nD) (t : Fin cfg0.N) :
    (dat0 V c).flushed 5 t = ((cfg0.win 5).blk t).view.read (Elt Ideal)
      (layerRelu (M := 50000) (K := 128) (N := 256) (V c main_v22) (V c main_arg0) (V c main_arg2) (V c main_arg4) (V c main_v23)) := by
  show (cfg0.win 5).cut (grid0.coords t) ((dat0 V c).after 5 t) = _
  rw [after0_5]
  unfold out0_5
  rw [View.canon_unit_zero offsets_zero]
  simp only [View.ld_unit_zero (S := S2000x128) offsets_zero, View.ld_unit_zero (S := S128x256) offsets_zero,
    View.ld_unit_zero (S := S1x256) offsets_zero]
  funext j
  obtain ⟨p, q, rfl⟩ : ∃ (p : Fin 2000) (q : Fin 256), j = ix2 p q := ⟨j 0, j 1, eq_ix2 j⟩
  have hemb : ((cfg0.win 5).blk t).view.emb (ix2 p q) = ix2 (⟨2000 * t.val + p.val, rows_lt0 t p⟩ : Fin 50000) q := by
    obtain ⟨e0, e1, e2, e3, e4, e5, e6, e7, e8, e9, e10, e11⟩ := idx_facts0 t
    funext ax; apply Fin.ext
    match ax with
    | ⟨0, _⟩ => show win0_5.index t (0 : Fin 2) * 2000 + 1 * p.val = 2000 * t.val + p.val; omega
    | ⟨1, _⟩ => show win0_5.index t (1 : Fin 2) * 256 + 1 * q.val = q.val; omega
  show k0_pay1 (iblk0 V c 0 t) (iblk0 V c 1 t) (iblk0 V c 2 t) (iblk0 V c 4 t) (iblk0 V c 3 t) (ix2 p q)
    = (layerRelu (M := 50000) (K := 128) (N := 256) (V c main_v22) (V c main_arg0) (V c main_arg2) (V c main_arg4) (V c main_v23)) (((cfg0.win 5).blk t).view.emb (ix2 p q))
  rw [hemb]
  refine (pay0_apply (iblk0 V c 0 t) (iblk0 V c 1 t) (iblk0 V c 2 t) (iblk0 V c 4 t) (iblk0 V c 3 t) p q).trans ?_
  refine congrArg (fun x : EReal => max x 0) ?_
  refine (lin_ix2 _ _ _ _ _ p q).trans (Eq.trans ?_ (lin_ix2 _ _ _ _ _ _ q).symm)
  refine congrArg₂ (· + ·) (congrArg₂ (· + ·) (Finset.sum_congr rfl fun k _ => ?_) (Finset.sum_congr rfl fun k _ => ?_)) ?_
  · rw [read0_0 V c t p k, read0_2 V c t k q]
  · rw [read0_1 V c t p k, read0_4 V c t k q]
  · exact read0_3 V c t 0 q

/-- An index of the result array is in point t's block iff each coordinate is in the block's range on its axis. -/
theorem mem_blk0 (t : Fin cfg0.N) (i : S50000x256.Idx) :
    i ∈ ((cfg0.win 5).blk t).view.set ↔ ∀ ax : Fin 2, win0_5.index t ax * S2000x256.size ax ≤ (i ax).val ∧ (i ax).val < win0_5.index t ax * S2000x256.size ax + S2000x256.size ax := by
  show i ∈ ((View.whole main_v24).slice (win0_5.rect t)).set ↔ _
  rw [View.set_slice_whole, Rect.mem_set_unit]
  exact Iff.rfl

/-- Every entry of the result array is in some point's block: row r is in block r / 2000. -/
theorem cover0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ : ∃ t : Fin cfg0.N, t.val = (i 0).val / 2000 :=
    ⟨⟨(i 0).val / 2000, by have h : cfg0.N = 25 := N_0; omega⟩, rfl⟩
  obtain ⟨e0, e1, e2, e3, e4, e5, e6, e7, e8, e9, e10, e11⟩ := idx_facts0 t
  refine ⟨t, flush0_5 t, ?_⟩
  rw [mem_blk0]
  intro ax
  match ax with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- THE RESULT ARRAY after the stage: the layer's value of the arrays the stage found. -/
theorem arr0 (c : Dev nD) : (dat0 V c).arrAt 5 cfg0.N
    = layerRelu (M := 50000) (K := 128) (N := 256) (V c main_v22) (V c main_arg0) (V c main_arg2) (V c main_arg4) (V c main_v23) :=
  (dat0 V c).arrAt_eq_of_cover 5 _ (fun t _ => flushed0 V c t) cover0

end Cert.KernelIdeal.Tile

end
-- ==== Proof.Tile1.lean ====
/-
  Tiled stage 1: the array it leaves.

  The stage runs over 25 points; point t reads rows 2000·t … 2000·t + 1999 of the aggregated features and of the node
  features, the whole of both weight matrices and of the bias row, and writes back rows 2000·t … 2000·t + 1999 of the
  result. What it writes is the layer's value (module Layer) of the loaded blocks, which — a row of the layer's value
  depending only on the same row of the two feature arrays — is those rows of the layer's value of the whole arrays. The
  25 blocks tile the 50000 rows, so after the stage the result array is the layer's value of the arrays the stage
  found, whatever those are.
-/
import proofs.«129512_j40020505264513_1_alg».proof.Proof.Gen.KernelIdeal.Frame
import proofs.«129512_j40020505264513_1_alg».proof.Proof.Payload

set_option maxRecDepth 16384

noncomputable section

namespace Cert.KernelIdeal.Tile

open Cert.KernelIdeal Cert.KernelIdeal.Gen Idealize.ShloMosaic Idealize.ShloMosaic.TcCoe Idealize.ShloMosaic.ValueIdx
open Idealize.SL.Sem Cert.Sage
open Idealize.ShloMosaic.Pipeline (Dat Cfg Window)

variable (V : (c : Dev nD) → (b : Ref sig .tc) → Buf (Elt Ideal) ((c : Thread nD τ).loc b))

/-- The printed index maps over the grid: the two feature windows and the result window are at block row t, every
    other block index is zero. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of block t is a row of the array. -/
theorem rows_lt1 (t : Fin cfg1.N) (p : Fin 2000) : 2000 * t.val + p.val < 50000 := by
  have h : t.val < 25 := lt_of_lt_of_eq t.isLt N_1
  have := p.isLt; omega

/-- Window 0's block at point t is rows 2000·t … 2000·t + 1999 of its array. -/
theorem read1_0 (c : Dev nD) (t : Fin cfg1.N) (p : Fin 2000) (k : Fin 256) :
    iblk1 V c 0 t (ix2 p k) = V c main_v43 (ix2 (⟨2000 * t.val + p.val, rows_lt1 t p⟩ : Fin 50000) k) := by
  obtain ⟨e0, e1, e2, e3, e4, e5, e6, e7, e8, e9, e10, e11⟩ := idx_facts1 t
  show V c main_v43 (((cfg1.win 0).blk t).view.emb (ix2 p k)) = _
  refine congrArg (V c main_v43) (funext fun ax => Fin.ext ?_)
  match ax with
  | ⟨0, _⟩ => show win1_0.index t (0 : Fin 2) * 2000 + 1 * p.val = 2000 * t.val + p.val; omega
  | ⟨1, _⟩ => show win1_0.index t (1 : Fin 2) * 256 + 1 * k.val = k.val; omega

/-- Window 1's block at point t is rows 2000·t … 2000·t + 1999 of its array. -/
theorem read1_1 (c : Dev nD) (t : Fin cfg1.N) (p : Fin 2000) (k : Fin 256) :
    iblk1 V c 1 t (ix2 p k) = V c main_v24 (ix2 (⟨2000 * t.val + p.val, rows_lt1 t p⟩ : Fin 50000) k) := by
  obtain ⟨e0, e1, e2, e3, e4, e5, e6, e7, e8, e9, e10, e11⟩ := idx_facts1 t
  show V c main_v24 (((cfg1.win 1).blk t).view.emb (ix2 p k)) = _
  refine congrArg (V c main_v24) (funext fun ax => Fin.ext ?_)
  match ax with
  | ⟨0, _⟩ => show win1_1.index t (0 : Fin 2) * 2000 + 1 * p.val = 2000 * t.val + p.val; omega
  | ⟨1, _⟩ => show win1_1.index t (1 : Fin 2) * 256 + 1 * k.val = k.val; omega

/-- Window 2 is the whole of its array at every point. -/
theorem read1_2 (c : Dev nD) (t : Fin cfg1.N) (k : Fin 256) (q : Fin 256) :
    iblk1 V c 2 t (ix2 k q) = V c main_arg5 (ix2 k q) := by
  obtain ⟨e0, e1, e2, e3, e4, e5, e6, e7, e8, e9, e10, e11⟩ := idx_facts1 t
  show V c main_arg5 (((cfg1.win 2).blk t).view.emb (ix2 k q)) = _
  refine congrArg (V c main_arg5) (funext fun ax => Fin.ext ?_)
  match ax with
  | ⟨0, _⟩ => show win1_2.index t (0 : Fin 2) * 256 + 1 * k.val = k.val; omega
  | ⟨1, _⟩ => show win1_2.index t (1 : Fin 2) * 256 + 1 * q.val = q.val; omega

/-- Window 3 is the whole of its array at every point. -/
theorem read1_3 (c : Dev nD) (t : Fin cfg1.N) (k : Fin 1) (q : Fin 256) :
    iblk1 V c 3 t (ix2 k q) = V c main_v44 (ix2 k q) := by
  obtain ⟨e0, e1, e2, e3, e4, e5, e6, e7, e8, e9, e10, e11⟩ := idx_facts1 t
  show V c main_v44 (((cfg1.win 3).blk t).view.emb (ix2 k q)) = _
  refine congrArg (V c main_v44) (funext fun ax => Fin.ext ?_)
  match ax with
  | ⟨0, _⟩ => show win1_3.index t (0 : Fin 2) * 1 + 1 * k.val = k.val; omega
  | ⟨1, _⟩ => show win1_3.index t (1 : Fin 2) * 256 + 1 * q.val = q.val; omega

/-- Window 4 is the whole of its array at every point. -/
theorem read1_4 (c : Dev nD) (t : Fin cfg1.N) (k : Fin 256) (q : Fin 256) :
    iblk1 V c 4 t (ix2 k q) = V c main_arg7 (ix2 k q) := by
  obtain ⟨e0, e1, e2, e3, e4, e5, e6, e7, e8, e9, e10, e11⟩ := idx_facts1 t
  show V c main_arg7 (((cfg1.win 4).blk t).view.emb (ix2 k q)) = _
  refine congrArg (V c main_arg7) (funext fun ax => Fin.ext ?_)
  match ax with
  | ⟨0, _⟩ => show win1_4.index t (0 : Fin 2) * 256 + 1 * k.val = k.val; omega
  | ⟨1, _⟩ => show win1_4.index t (1 : Fin 2) * 256 + 1 * q.val = q.val; omega

/-- WHAT POINT t WRITES BACK is block t of the layer's value of the arrays the stage found. -/
theorem flushed1 (c : Dev nD) (t : Fin cfg1.N) :
    (dat1 V c).flushed 5 t = ((cfg1.win 5).blk t).view.read (Elt Ideal)
      (layerRelu (M := 50000) (K := 256) (N := 256) (V c main_v43) (V c main_v24) (V c main_arg5) (V c main_arg7) (V c main_v44)) := by
  show (cfg1.win 5).cut (grid1.coords t) ((dat1 V c).after 5 t) = _
  rw [after1_5]
  unfold out1_5
  rw [View.canon_unit_zero offsets_zero]
  simp only [View.ld_unit_zero (S := S2000x256) offsets_zero, View.ld_unit_zero (S := S256x256) offsets_zero,
    View.ld_unit_zero (S := S1x256) offsets_zero]
  funext j
  obtain ⟨p, q, rfl⟩ : ∃ (p : Fin 2000) (q : Fin 256), j = ix2 p q := ⟨j 0, j 1, eq_ix2 j⟩
  have hemb : ((cfg1.win 5).blk t).view.emb (ix2 p q) = ix2 (⟨2000 * t.val + p.val, rows_lt1 t p⟩ : Fin 50000) q := by
    obtain ⟨e0, e1, e2, e3, e4, e5, e6, e7, e8, e9, e10, e11⟩ := idx_facts1 t
    funext ax; apply Fin.ext
    match ax with
    | ⟨0, _⟩ => show win1_5.index t (0 : Fin 2) * 2000 + 1 * p.val = 2000 * t.val + p.val; omega
    | ⟨1, _⟩ => show win1_5.index t (1 : Fin 2) * 256 + 1 * q.val = q.val; omega
  show k1_pay1 (iblk1 V c 0 t) (iblk1 V c 1 t) (iblk1 V c 2 t) (iblk1 V c 4 t) (iblk1 V c 3 t) (ix2 p q)
    = (layerRelu (M := 50000) (K := 256) (N := 256) (V c main_v43) (V c main_v24) (V c main_arg5) (V c main_arg7) (V c main_v44)) (((cfg1.win 5).blk t).view.emb (ix2 p q))
  rw [hemb]
  refine (pay1_apply (iblk1 V c 0 t) (iblk1 V c 1 t) (iblk1 V c 2 t) (iblk1 V c 4 t) (iblk1 V c 3 t) p q).trans ?_
  refine congrArg (fun x : EReal => max x 0) ?_
  refine (lin_ix2 _ _ _ _ _ p q).trans (Eq.trans ?_ (lin_ix2 _ _ _ _ _ _ q).symm)
  refine congrArg₂ (· + ·) (congrArg₂ (· + ·) (Finset.sum_congr rfl fun k _ => ?_) (Finset.sum_congr rfl fun k _ => ?_)) ?_
  · rw [read1_0 V c t p k, read1_2 V c t k q]
  · rw [read1_1 V c t p k, read1_4 V c t k q]
  · exact read1_3 V c t 0 q

/-- An index of the result array is in point t's block iff each coordinate is in the block's range on its axis. -/
theorem mem_blk1 (t : Fin cfg1.N) (i : S50000x256.Idx) :
    i ∈ ((cfg1.win 5).blk t).view.set ↔ ∀ ax : Fin 2, win1_5.index t ax * S2000x256.size ax ≤ (i ax).val ∧ (i ax).val < win1_5.index t ax * S2000x256.size ax + S2000x256.size ax := by
  show i ∈ ((View.whole main_v45).slice (win1_5.rect t)).set ↔ _
  rw [View.set_slice_whole, Rect.mem_set_unit]
  exact Iff.rfl

/-- Every entry of the result array is in some point's block: row r is in block r / 2000. -/
theorem cover1 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  obtain ⟨t, ht⟩ : ∃ t : Fin cfg1.N, t.val = (i 0).val / 2000 :=
    ⟨⟨(i 0).val / 2000, by have h : cfg1.N = 25 := N_1; omega⟩, rfl⟩
  obtain ⟨e0, e1, e2, e3, e4, e5, e6, e7, e8, e9, e10, e11⟩ := idx_facts1 t
  refine ⟨t, flush1_5 t, ?_⟩
  rw [mem_blk1]
  intro ax
  match ax with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- THE RESULT ARRAY after the stage: the layer's value of the arrays the stage found. -/
theorem arr1 (c : Dev nD) : (dat1 V c).arrAt 5 cfg1.N
    = layerRelu (M := 50000) (K := 256) (N := 256) (V c main_v43) (V c main_v24) (V c main_arg5) (V c main_arg7) (V c main_v44) :=
  (dat1 V c).arrAt_eq_of_cover 5 _ (fun t _ => flushed1 V c t) cover1

end Cert.KernelIdeal.Tile

end
-- ==== Proof.Tile2.lean ====
/-
  Tiled stage 2: the array it leaves.

  The stage runs over 25 points; point t reads rows 2000·t … 2000·t + 1999 of the aggregated features and of the node
  features, the whole of both weight matrices and of the bias row, and writes back rows 2000·t … 2000·t + 1999 of the
  result. What it writes is the layer's value (module Layer) of the loaded blocks, which — a row of the layer's value
  depending only on the same row of the two feature arrays — is those rows of the layer's value of the whole arrays. The
  25 blocks tile the 50000 rows, so after the stage the result array is the layer's value of the arrays the stage
  found, whatever those are.
-/
import proofs.«129512_j40020505264513_1_alg».proof.Proof.Gen.KernelIdeal.Frame
import proofs.«129512_j40020505264513_1_alg».proof.Proof.Payload

set_option maxRecDepth 16384

noncomputable section

namespace Cert.KernelIdeal.Tile

open Cert.KernelIdeal Cert.KernelIdeal.Gen Idealize.ShloMosaic Idealize.ShloMosaic.TcCoe Idealize.ShloMosaic.ValueIdx
open Idealize.SL.Sem Cert.Sage
open Idealize.ShloMosaic.Pipeline (Dat Cfg Window)

variable (V : (c : Dev nD) → (b : Ref sig .tc) → Buf (Elt Ideal) ((c : Thread nD τ).loc b))

/-- The printed index maps over the grid: the two feature windows and the result window are at block row t, every
    other block index is zero. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of block t is a row of the array. -/
theorem rows_lt2 (t : Fin cfg2.N) (p : Fin 2000) : 2000 * t.val + p.val < 50000 := by
  have h : t.val < 25 := lt_of_lt_of_eq t.isLt N_2
  have := p.isLt; omega

/-- Window 0's block at point t is rows 2000·t … 2000·t + 1999 of its array. -/
theorem read2_0 (c : Dev nD) (t : Fin cfg2.N) (p : Fin 2000) (k : Fin 256) :
    iblk2 V c 0 t (ix2 p k) = V c main_v64 (ix2 (⟨2000 * t.val + p.val, rows_lt2 t p⟩ : Fin 50000) k) := by
  obtain ⟨e0, e1, e2, e3, e4, e5, e6, e7, e8, e9, e10, e11⟩ := idx_facts2 t
  show V c main_v64 (((cfg2.win 0).blk t).view.emb (ix2 p k)) = _
  refine congrArg (V c main_v64) (funext fun ax => Fin.ext ?_)
  match ax with
  | ⟨0, _⟩ => show win2_0.index t (0 : Fin 2) * 2000 + 1 * p.val = 2000 * t.val + p.val; omega
  | ⟨1, _⟩ => show win2_0.index t (1 : Fin 2) * 256 + 1 * k.val = k.val; omega

/-- Window 1's block at point t is rows 2000·t … 2000·t + 1999 of its array. -/
theorem read2_1 (c : Dev nD) (t : Fin cfg2.N) (p : Fin 2000) (k : Fin 256) :
    iblk2 V c 1 t (ix2 p k) = V c main_v45 (ix2 (⟨2000 * t.val + p.val, rows_lt2 t p⟩ : Fin 50000) k) := by
  obtain ⟨e0, e1, e2, e3, e4, e5, e6, e7, e8, e9, e10, e11⟩ := idx_facts2 t
  show V c main_v45 (((cfg2.win 1).blk t).view.emb (ix2 p k)) = _
  refine congrArg (V c main_v45) (funext fun ax => Fin.ext ?_)
  match ax with
  | ⟨0, _⟩ => show win2_1.index t (0 : Fin 2) * 2000 + 1 * p.val = 2000 * t.val + p.val; omega
  | ⟨1, _⟩ => show win2_1.index t (1 : Fin 2) * 256 + 1 * k.val = k.val; omega

/-- Window 2 is the whole of its array at every point. -/
theorem read2_2 (c : Dev nD) (t : Fin cfg2.N) (k : Fin 256) (q : Fin 256) :
    iblk2 V c 2 t (ix2 k q) = V c main_arg8 (ix2 k q) := by
  obtain ⟨e0, e1, e2, e3, e4, e5, e6, e7, e8, e9, e10, e11⟩ := idx_facts2 t
  show V c main_arg8 (((cfg2.win 2).blk t).view.emb (ix2 k q)) = _
  refine congrArg (V c main_arg8) (funext fun ax => Fin.ext ?_)
  match ax with
  | ⟨0, _⟩ => show win2_2.index t (0 : Fin 2) * 256 + 1 * k.val = k.val; omega
  | ⟨1, _⟩ => show win2_2.index t (1 : Fin 2) * 256 + 1 * q.val = q.val; omega

/-- Window 3 is the whole of its array at every point. -/
theorem read2_3 (c : Dev nD) (t : Fin cfg2.N) (k : Fin 1) (q : Fin 256) :
    iblk2 V c 3 t (ix2 k q) = V c main_v65 (ix2 k q) := by
  obtain ⟨e0, e1, e2, e3, e4, e5, e6, e7, e8, e9, e10, e11⟩ := idx_facts2 t
  show V c main_v65 (((cfg2.win 3).blk t).view.emb (ix2 k q)) = _
  refine congrArg (V c main_v65) (funext fun ax => Fin.ext ?_)
  match ax with
  | ⟨0, _⟩ => show win2_3.index t (0 : Fin 2) * 1 + 1 * k.val = k.val; omega
  | ⟨1, _⟩ => show win2_3.index t (1 : Fin 2) * 256 + 1 * q.val = q.val; omega

/-- Window 4 is the whole of its array at every point. -/
theorem read2_4 (c : Dev nD) (t : Fin cfg2.N) (k : Fin 256) (q : Fin 256) :
    iblk2 V c 4 t (ix2 k q) = V c main_arg10 (ix2 k q) := by
  obtain ⟨e0, e1, e2, e3, e4, e5, e6, e7, e8, e9, e10, e11⟩ := idx_facts2 t
  show V c main_arg10 (((cfg2.win 4).blk t).view.emb (ix2 k q)) = _
  refine congrArg (V c main_arg10) (funext fun ax => Fin.ext ?_)
  match ax with
  | ⟨0, _⟩ => show win2_4.index t (0 : Fin 2) * 256 + 1 * k.val = k.val; omega
  | ⟨1, _⟩ => show win2_4.index t (1 : Fin 2) * 256 + 1 * q.val = q.val; omega

/-- WHAT POINT t WRITES BACK is block t of the layer's value of the arrays the stage found. -/
theorem flushed2 (c : Dev nD) (t : Fin cfg2.N) :
    (dat2 V c).flushed 5 t = ((cfg2.win 5).blk t).view.read (Elt Ideal)
      (lin (M := 50000) (K := 256) (N := 256) (V c main_v64) (V c main_v45) (V c main_arg8) (V c main_arg10) (V c main_v65)) := by
  show (cfg2.win 5).cut (grid2.coords t) ((dat2 V c).after 5 t) = _
  rw [after2_5]
  unfold out2_5
  rw [View.canon_unit_zero offsets_zero]
  simp only [View.ld_unit_zero (S := S2000x256) offsets_zero, View.ld_unit_zero (S := S256x256) offsets_zero,
    View.ld_unit_zero (S := S1x256) offsets_zero]
  funext j
  obtain ⟨p, q, rfl⟩ : ∃ (p : Fin 2000) (q : Fin 256), j = ix2 p q := ⟨j 0, j 1, eq_ix2 j⟩
  have hemb : ((cfg2.win 5).blk t).view.emb (ix2 p q) = ix2 (⟨2000 * t.val + p.val, rows_lt2 t p⟩ : Fin 50000) q := by
    obtain ⟨e0, e1, e2, e3, e4, e5, e6, e7, e8, e9, e10, e11⟩ := idx_facts2 t
    funext ax; apply Fin.ext
    match ax with
    | ⟨0, _⟩ => show win2_5.index t (0 : Fin 2) * 2000 + 1 * p.val = 2000 * t.val + p.val; omega
    | ⟨1, _⟩ => show win2_5.index t (1 : Fin 2) * 256 + 1 * q.val = q.val; omega
  show k2_pay1 (iblk2 V c 0 t) (iblk2 V c 1 t) (iblk2 V c 2 t) (iblk2 V c 4 t) (iblk2 V c 3 t) (ix2 p q)
    = (lin (M := 50000) (K := 256) (N := 256) (V c main_v64) (V c main_v45) (V c main_arg8) (V c main_arg10) (V c main_v65)) (((cfg2.win 5).blk t).view.emb (ix2 p q))
  rw [hemb]
  refine (pay2_apply (iblk2 V c 0 t) (iblk2 V c 1 t) (iblk2 V c 2 t) (iblk2 V c 4 t) (iblk2 V c 3 t) p q).trans ?_
  refine (lin_ix2 _ _ _ _ _ p q).trans (Eq.trans ?_ (lin_ix2 _ _ _ _ _ _ q).symm)
  refine congrArg₂ (· + ·) (congrArg₂ (· + ·) (Finset.sum_congr rfl fun k _ => ?_) (Finset.sum_congr rfl fun k _ => ?_)) ?_
  · rw [read2_0 V c t p k, read2_2 V c t k q]
  · rw [read2_1 V c t p k, read2_4 V c t k q]
  · exact read2_3 V c t 0 q

/-- An index of the result array is in point t's block iff each coordinate is in the block's range on its axis. -/
theorem mem_blk2 (t : Fin cfg2.N) (i : S50000x256.Idx) :
    i ∈ ((cfg2.win 5).blk t).view.set ↔ ∀ ax : Fin 2, win2_5.index t ax * S2000x256.size ax ≤ (i ax).val ∧ (i ax).val < win2_5.index t ax * S2000x256.size ax + S2000x256.size ax := by
  show i ∈ ((View.whole main_v66).slice (win2_5.rect t)).set ↔ _
  rw [View.set_slice_whole, Rect.mem_set_unit]
  exact Iff.rfl

/-- Every entry of the result array is in some point's block: row r is in block r / 2000. -/
theorem cover2 (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  obtain ⟨t, ht⟩ : ∃ t : Fin cfg2.N, t.val = (i 0).val / 2000 :=
    ⟨⟨(i 0).val / 2000, by have h : cfg2.N = 25 := N_2; omega⟩, rfl⟩
  obtain ⟨e0, e1, e2, e3, e4, e5, e6, e7, e8, e9, e10, e11⟩ := idx_facts2 t
  refine ⟨t, flush2_5 t, ?_⟩
  rw [mem_blk2]
  intro ax
  match ax with
  | ⟨0, _⟩ => show win2_5.index t (0 : Fin 2) * 2000 ≤ (i 0).val ∧ (i 0).val < win2_5.index t (0 : Fin 2) * 2000 + 2000; omega
  | ⟨1, _⟩ => show win2_5.index t (1 : Fin 2) * 256 ≤ (i 1).val ∧ (i 1).val < win2_5.index t (1 : Fin 2) * 256 + 256; omega

/-- THE RESULT ARRAY after the stage: the layer's value of the arrays the stage found. -/
theorem arr2 (c : Dev nD) : (dat2 V c).arrAt 5 cfg2.N
    = lin (M := 50000) (K := 256) (N := 256) (V c main_v64) (V c main_v45) (V c main_arg8) (V c main_arg10) (V c main_v65) :=
  (dat2 V c).arrAt_eq_of_cover 5 _ (fun t _ => flushed2 V c t) cover2

end Cert.KernelIdeal.Tile

end
-- ==== Proof.Bridge.lean ====
/-
  The tiled program's result is the plain program's.

  Boundary by boundary through the tiled program's run: the first stage finds the plain program's aggregated inputs, so
  it leaves the plain program's first layer h₀; the stretch after it aggregates h₀ exactly as the plain program does, so
  the second stage leaves h₁; likewise the third leaves h₂; h₀ and h₁ survive the later stages (a stage only reads them);
  and the last stretch takes the maximum of the three two at a time, which is the plain program's stack-and-reduce.
-/
import proofs.«129512_j40020505264513_1_alg».proof.Proof.Carry
import proofs.«129512_j40020505264513_1_alg».proof.Proof.Host0
import proofs.«129512_j40020505264513_1_alg».proof.Proof.Host1
import proofs.«129512_j40020505264513_1_alg».proof.Proof.Host2
import proofs.«129512_j40020505264513_1_alg».proof.Proof.Host3
import proofs.«129512_j40020505264513_1_alg».proof.Proof.Tile0
import proofs.«129512_j40020505264513_1_alg».proof.Proof.Tile1
import proofs.«129512_j40020505264513_1_alg».proof.Proof.Tile2
import proofs.«129512_j40020505264513_1_alg».proof.Proof.RefLayers

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.StableHlo

open Cert.Sage
open Idealize.ShloMosaic.Pipeline (Dat)

variable (m : (ℓ : Loc nD τ sig) → Buf (Elt Ideal) ℓ) (ρ : Dev nD → PrngReg) (c : Dev nD)

set_option quotPrecheck false

local notation "𝐚0" => m ((c.tc : Thread nD τ).loc main_arg0)
local notation "𝐚1" => m ((c.tc : Thread nD τ).loc main_arg1)
local notation "𝐚2" => m ((c.tc : Thread nD τ).loc main_arg2)
local notation "𝐚3" => m ((c.tc : Thread nD τ).loc main_arg3)
local notation "𝐚4" => m ((c.tc : Thread nD τ).loc main_arg4)
local notation "𝐚5" => m ((c.tc : Thread nD τ).loc main_arg5)
local notation "𝐚6" => m ((c.tc : Thread nD τ).loc main_arg6)
local notation "𝐚7" => m ((c.tc : Thread nD τ).loc main_arg7)
local notation "𝐚8" => m ((c.tc : Thread nD τ).loc main_arg8)
local notation "𝐚9" => m ((c.tc : Thread nD τ).loc main_arg9)
local notation "𝐚10" => m ((c.tc : Thread nD τ).loc main_arg10)
local notation "𝐡0" => Cert.ReferenceIdeal.Read.val_main_v29 (F := Ideal) 𝐚0 𝐚1 𝐚2 𝐚3 𝐚4
local notation "𝐡1" => Cert.ReferenceIdeal.Read.val_main_v55 (F := Ideal) 𝐚0 𝐚1 𝐚2 𝐚3 𝐚4 𝐚5 𝐚6 𝐚7
local notation "𝐡2" => Cert.ReferenceIdeal.Read.val_main_v80 (F := Ideal) 𝐚0 𝐚1 𝐚2 𝐚3 𝐚4 𝐚5 𝐚6 𝐚7 𝐚8 𝐚9 𝐚10

/-- The first stage leaves the plain program's first layer. -/
theorem s2_h0 : W2 m ρ c (Proc.devRef .tc main_v24) = 𝐡0 := by
  refine (W2_arr m ρ c 5).trans ((Tile.arr0 (V1 m ρ) c).trans ?_)
  show layerRelu (M := 50000) (K := 128) (N := 256) (W1 m ρ c (Proc.devRef .tc main_v22)) (W1 m ρ c (Proc.devRef .tc main_arg0)) (W1 m ρ c (Proc.devRef .tc main_arg2)) (W1 m ρ c (Proc.devRef .tc main_arg4)) (W1 m ρ c (Proc.devRef .tc main_v23)) = _
  rw [h0_agg m ρ c, c1_arg0 m ρ c, c1_arg2 m ρ c, c1_arg4 m ρ c, h0_bias m ρ c]
  exact (Cert.ReferenceIdeal.RefValue.h0_eq 𝐚0 𝐚1 𝐚2 𝐚3 𝐚4).symm

theorem s3_agg : W3 m ρ c (Proc.devRef .tc main_v43) = Cert.ReferenceIdeal.RefValue.agg1 𝐡0 𝐚1 :=
  (h1_agg (W2 m ρ c) 𝐚1 (c2_v1 m ρ c) (c2_v3 m ρ c)).trans (congrArg (fun H => Cert.ReferenceIdeal.RefValue.agg1 H 𝐚1) (s2_h0 m ρ c))
theorem s3_bias : W3 m ρ c (Proc.devRef .tc main_v44) = Cert.ReferenceIdeal.RefValue.row 𝐚6 :=
  (h1_bias (W2 m ρ c)).trans (congrArg Cert.ReferenceIdeal.RefValue.row (c2_arg6 m ρ c))
theorem s3_h0 : W3 m ρ c (Proc.devRef .tc main_v24) = 𝐡0 := (pass1_v24 (W2 m ρ c)).trans (s2_h0 m ρ c)

/-- The second stage leaves the plain program's second layer. -/
theorem s4_h1 : W4 m ρ c (Proc.devRef .tc main_v45) = 𝐡1 := by
  refine (W4_arr m ρ c 5).trans ((Tile.arr1 (V3 m ρ) c).trans ?_)
  show layerRelu (M := 50000) (K := 256) (N := 256) (W3 m ρ c (Proc.devRef .tc main_v43)) (W3 m ρ c (Proc.devRef .tc main_v24)) (W3 m ρ c (Proc.devRef .tc main_arg5)) (W3 m ρ c (Proc.devRef .tc main_arg7)) (W3 m ρ c (Proc.devRef .tc main_v44)) = _
  rw [s3_agg m ρ c, s3_h0 m ρ c, c3_arg5 m ρ c, c3_arg7 m ρ c, s3_bias m ρ c]
  exact (Cert.ReferenceIdeal.RefValue.h1_eq 𝐚0 𝐚1 𝐚2 𝐚3 𝐚4 𝐚5 𝐚6 𝐚7).symm
/-- … and still holds the first layer, which it only reads. -/
theorem s4_h0 : W4 m ρ c (Proc.devRef .tc main_v24) = 𝐡0 :=
  (W4_arr m ρ c 1).trans (((dat1 (V3 m ρ) c).arrAt_in 1 rfl _).trans ((A_eq1 (V3 m ρ) c 1).trans (s3_h0 m ρ c)))

theorem s5_agg : W5 m ρ c (Proc.devRef .tc main_v64) = Cert.ReferenceIdeal.RefValue.agg2 𝐡1 𝐚1 :=
  (h2_agg (W4 m ρ c) 𝐚1 (c4_v1 m ρ c) (c4_v3 m ρ c)).trans (congrArg (fun H => Cert.ReferenceIdeal.RefValue.agg2 H 𝐚1) (s4_h1 m ρ c))
theorem s5_bias : W5 m ρ c (Proc.devRef .tc main_v65) = Cert.ReferenceIdeal.RefValue.row 𝐚9 :=
  (h2_bias (W4 m ρ c)).trans (congrArg Cert.ReferenceIdeal.RefValue.row (c4_arg9 m ρ c))
theorem s5_h1 : W5 m ρ c (Proc.devRef .tc main_v45) = 𝐡1 := (pass2_v45 (W4 m ρ c)).trans (s4_h1 m ρ c)
theorem s5_h0 : W5 m ρ c (Proc.devRef .tc main_v24) = 𝐡0 := (pass2_v24 (W4 m ρ c)).trans (s4_h0 m ρ c)

/-- The third stage leaves the plain program's third layer. -/
theorem s6_h2 : W6 m ρ c (Proc.devRef .tc main_v66) = 𝐡2 := by
  refine (W6_arr m ρ c 5).trans ((Tile.arr2 (V5 m ρ) c).trans ?_)
  show lin (M := 50000) (K := 256) (N := 256) (W5 m ρ c (Proc.devRef .tc main_v64)) (W5 m ρ c (Proc.devRef .tc main_v45)) (W5 m ρ c (Proc.devRef .tc main_arg8)) (W5 m ρ c (Proc.devRef .tc main_arg10)) (W5 m ρ c (Proc.devRef .tc main_v65)) = _
  rw [s5_agg m ρ c, s5_h1 m ρ c, c5_arg8 m ρ c, c5_arg10 m ρ c, s5_bias m ρ c]
  exact (Cert.ReferenceIdeal.RefValue.h2_eq 𝐚0 𝐚1 𝐚2 𝐚3 𝐚4 𝐚5 𝐚6 𝐚7 𝐚8 𝐚9 𝐚10).symm
theorem s6_h1 : W6 m ρ c (Proc.devRef .tc main_v45) = 𝐡1 :=
  (W6_arr m ρ c 1).trans (((dat2 (V5 m ρ) c).arrAt_in 1 rfl _).trans ((A_eq2 (V5 m ρ) c 1).trans (s5_h1 m ρ c)))
theorem s6_h0 : W6 m ρ c (Proc.devRef .tc main_v24) = 𝐡0 := (W6_of_ne m ρ c main_v24 (by decide)).trans (s5_h0 m ρ c)

/-- THE RESULT BUFFER at the last boundary holds the plain program's result. -/
theorem result_eq : W7 m ρ c (Proc.devRef .tc main_v68)
    = Cert.ReferenceIdeal.Read.val_main_v85 (F := Ideal) 𝐚0 𝐚1 𝐚2 𝐚3 𝐚4 𝐚5 𝐚6 𝐚7 𝐚8 𝐚9 𝐚10 := by
  refine (h3_out (W6 m ρ c)).trans ?_
  rw [s6_h0 m ρ c, s6_h1 m ρ c, s6_h2 m ρ c]
  exact (Cert.ReferenceIdeal.RefValue.out_eq 𝐚0 𝐚1 𝐚2 𝐚3 𝐚4 𝐚5 𝐚6 𝐚7 𝐚8 𝐚9 𝐚10).symm

end Cert.KernelIdeal.Bridge

end
-- ==== Proof.lean ====
/-
  A three-layer graph convolution with mean aggregation: the tiled program against the plain one.

  Both programs take node features x ([50000, 128]), an edge list ([2, 800000]), and per layer two weight matrices and a
  bias. Layer ℓ aggregates the previous features over the edges (gather the source rows, add them up at the destination
  rows, divide by the in-degree clamped below by one), then forms
      agg · Wl + bias + h · Wr,
  rectified for the first two layers; the result is the entrywise maximum of the three layers' outputs.
  The tiled program computes each layer's two products and the bias in a kernel over 25 blocks of 2000 rows, in the
  grouping (agg · Wl + h · Wr) + bias, with its matrix operands rounded to a shorter float format on the way in; the
  plain program computes (agg · Wl + bias) + h · Wr on whole arrays. Over the extended reals rounding is the identity and
  addition is commutative and associative, so the two agree entry by entry, whatever the inputs (nothing here uses that
  they are finite); a block of rows of a layer depends only on those rows of its operands, so the 25 blocks assemble to
  the whole layer; the aggregation between layers is the same operations in both programs; and the maximum of three taken
  two at a time is the maximum over the three stacked.
  The three frames are the generated ones (the plain program's is its generated run with the result dropped); the ideal
  pass rewrote nothing, so the idealized kernel is the printed kernel read over the extended reals.
-/
import proofs.«129512_j40020505264513_1_alg».proof.Defs
import proofs.«129512_j40020505264513_1_alg».proof.Proof.Gen.Kernel
import proofs.«129512_j40020505264513_1_alg».proof.Proof.Gen.Kernel.Skeleton
import proofs.«129512_j40020505264513_1_alg».proof.Proof.Gen.Kernel.Launch
import proofs.«129512_j40020505264513_1_alg».proof.Proof.Gen.Kernel.Points
import proofs.«129512_j40020505264513_1_alg».proof.Proof.Gen.Kernel.Frame
import proofs.«129512_j40020505264513_1_alg».proof.Proof.Gen.KernelIdeal
import proofs.«129512_j40020505264513_1_alg».proof.Proof.Gen.KernelIdeal.Skeleton
import proofs.«129512_j40020505264513_1_alg».proof.Proof.Gen.KernelIdeal.Launch
import proofs.«129512_j40020505264513_1_alg».proof.Proof.Gen.KernelIdeal.Points
import proofs.«129512_j40020505264513_1_alg».proof.Proof.Gen.KernelIdeal.Frame
import proofs.«129512_j40020505264513_1_alg».proof.Proof.Gen.ReferenceIdeal
import proofs.«129512_j40020505264513_1_alg».proof.Proof.Gen.Pre_finite_inputs
import proofs.«129512_j40020505264513_1_alg».proof.Proof.Gen.ReferenceIdeal.Run
import proofs.«129512_j40020505264513_1_alg».proof.Proof.Gen.ReferenceIdeal.Read
import proofs.«129512_j40020505264513_1_alg».proof.Proof.KRun
import proofs.«129512_j40020505264513_1_alg».proof.Proof.Bridge
import Idealize.ShloMosaic.Adequacy
import Idealize.ShloMosaic.Init

set_option maxRecDepth 16384

noncomputable section

namespace Cert.Proof

open Idealize.ShloMosaic Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs run; the tiled program's result buffer ends at the last boundary's contents, which is the plain
    program's result term of the same arguments. -/
theorem algebraic : Cert.algebraic_KernelIdeal_ReferenceIdeal := by
  intro m ρ m' ρ' _ hagree
  refine ⟨fun c => Cert.KernelIdeal.Gen.W7 m ρ c (Proc.devRef .tc Cert.KernelIdeal.main_v68),
    Cert.KernelIdeal.RunValue.run_named m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v85_eq, e0, e1, e2, e3, e4, e5, e6, e7, e8, e9, e10]
  exact (Cert.KernelIdeal.Bridge.result_eq m ρ c).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
